-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S4096x64 .f32 .bf16
  ∧ IdealRules.truncf_extf.Statement Cert.KernelIdeal.S4096x1 .f32 .bf16
  ∧ IdealRules.truncf_extf.Statement Cert.KernelIdeal.S4096x64 .f32 .bf16
  ∧ IdealRules.truncf_extf.Statement Cert.KernelIdeal.S4096x1 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x64 : Shape := ⟨3, ![4, 4096, 64]⟩
abbrev S_ : Shape := ⟨0, ![]⟩

class Facts : Prop where
  bcast_S_S4x4096x64 : S_.BroadcastsInDim S4x4096x64 (![] : Fin 0 → Fin S4x4096x64.rank)
  reducesTo_S4x4096x64_S_d0_1_2 : S4x4096x64.ReducesTo [0, 1, 2] S_
  h_S_ : 0 < S_.numel

variable [Facts]

def fn {F : FTy → Type} [FloatOps F] (main_arg0 : FVec F S4x4096x64 .f32) (main_arg1 : FVec F S4x4096x64 .f32) : IVec S_ 1 :=
  let main_v0 : FVec F S4x4096x64 .f32 := Host.absf main_arg0
  let main_cst : FVec F S_ .f32 := constant S_ .f32 0x7F800000#32
  let main_v1 : FVec F S4x4096x64 .f32 := broadcastInDim S4x4096x64 ![] bcast_S_S4x4096x64 main_cst
  let main_v2 : IVec S4x4096x64 1 := cmpf .olt main_v0 main_v1
  let main_c : IVec S_ 1 := constantI S_ 1 1#1
  let main_v3 : IVec S_ 1 := (fun x v => Host.reduce IntOp.andi x v reducesTo_S4x4096x64_S_d0_1_2 h_S_) main_v2 main_c
  let main_v4 : FVec F S4x4096x64 .f32 := Host.absf main_arg1
  let main_cst_0 : FVec F S_ .f32 := constant S_ .f32 0x7F800000#32
  let main_v5 : FVec F S4x4096x64 .f32 := broadcastInDim S4x4096x64 ![] bcast_S_S4x4096x64 main_cst_0
  let main_v6 : IVec S4x4096x64 1 := cmpf .olt main_v4 main_v5
  let main_c_1 : IVec S_ 1 := constantI S_ 1 1#1
  let main_v7 : IVec S_ 1 := (fun x v => Host.reduce IntOp.andi x v reducesTo_S4x4096x64_S_d0_1_2 h_S_) main_v6 main_c_1
  let main_v8 : IVec S_ 1 := andi main_v3 main_v7
  main_v8
-- ==== Kernel.lean ====
abbrev S4x4096x64 : Shape := ⟨3, ![4, 4096, 64]⟩
abbrev S1x1x2 : Shape := ⟨3, ![1, 1, 2]⟩
abbrev S1x4096x64 : Shape := ⟨3, ![1, 4096, 64]⟩
abbrev S4096x64 : Shape := ⟨2, ![4096, 64]⟩
abbrev S4096 : Shape := ⟨1, ![4096]⟩
abbrev S4096x1 : Shape := ⟨2, ![4096, 1]⟩
abbrev S4096x2 : Shape := ⟨2, ![4096, 2]⟩
abbrev S4096x68 : Shape := ⟨2, ![4096, 68]⟩
abbrev S4096x4096 : Shape := ⟨2, ![4096, 4096]⟩
abbrev S1x4096x1 : Shape := ⟨3, ![1, 4096, 1]⟩
abbrev S1 : Shape := ⟨1, ![1]⟩
abbrev S1x1x1 : Shape := ⟨3, ![1, 1, 1]⟩
abbrev S1x1 : Shape := ⟨2, ![1, 1]⟩
abbrev S1x4096 : Shape := ⟨2, ![1, 4096]⟩
abbrev S1x2 : Shape := ⟨2, ![1, 2]⟩
abbrev S_ : Shape := ⟨0, ![]⟩

abbrev nBuf : Space → Nat
  | .hbm => 14
  | .vmem => 5
  | .smem => 0
  | _ => 0

abbrev bufTy : (tb : Table) → Fin (tcTables nBuf tb) → BufTy
  | .hbm, ⟨0, _⟩ => ⟨S4x4096x64, .f32⟩
  | .hbm, ⟨1, _⟩ => ⟨S4x4096x64, .f32⟩
  | .hbm, ⟨2, _⟩ => ⟨S1x1x2, .f32⟩
  | .hbm, ⟨3, _⟩ => ⟨S1x1x1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S1x1x1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S1x4096x64, .f32⟩
  | .local _ .vmem, ⟨1, _⟩ => ⟨S1x4096x64, .f32⟩
  | .local _ .vmem, ⟨2, _⟩ => ⟨S1x4096x64, .f32⟩
  | .local _ .vmem, ⟨3, _⟩ => ⟨S1x4096x64, .f32⟩
  | .local _ .vmem, ⟨4, _⟩ => ⟨S1x1x2, .f32⟩
  | _, _ => ⟨S4x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v53 : BitVec 1 := Scalar.cmpi .eq arg0 c0_i32
  let v54 : BitVec 32 := Scalar.extui v53
  let c0_i32_16 : BitVec 32 := 0#32
  let v55 : BitVec 1 := Scalar.cmpi .ne v54 c0_i32_16
  v55

def k0_cond2 (i : grid0.Coords) : BitVec 1 :=
  let arg0 : BitVec 32 := BitVec.ofNat 32 (i 0).val
  let c0_i32_17 : BitVec 32 := 0#32
  let v56 : BitVec 1 := Scalar.cmpi .sgt arg0 c0_i32_17
  let v57 : BitVec 32 := Scalar.extui v56
  let c0_i32_18 : BitVec 32 := 0#32
  let v58 : BitVec 1 := Scalar.cmpi .ne v57 c0_i32_18
  v58

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1x4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  bitsLt_bf16_f32 : FTy.bits .bf16 < FTy.bits .f32
  reduces_S4096x64_S4096 : S4096x64.Reduces [1] S4096
  shapeCasts_S4096_S4096x1 : S4096.ShapeCasts S4096x1
  concatenates_S4096x64_S4096x2_S4096x1_S4096x1_S4096x68_d1 : Shape.Concatenates [S4096x64, S4096x2, S4096x1, S4096x1] S4096x68 1
  concatenates_S4096x64_S4096x1_S4096x1_S4096x2_S4096x68_d1 : Shape.Concatenates [S4096x64, S4096x1, S4096x1, S4096x2] S4096x68 1
  reduces_S4096x4096_S4096 : S4096x4096.Reduces [1] S4096
  shapeCasts_S4096x1_S1x4096x1 : S4096x1.ShapeCasts S1x4096x1
  reduces_S1x4096x1_S1 : S1x4096x1.Reduces [1, 2] S1
  shapeCasts_S1_S1x1x1 : S1.ShapeCasts S1x1x1
  inpos_S1x1x1_p0_0_0 : ∀ a, (![0, 0, 0] : Fin 3 → Nat) a < S1x1x1.size a
  reduces_S4096x4096_S4096_2 : S4096x4096.Reduces [0] S4096
  shapeCasts_S4096_S1x4096 : S4096.ShapeCasts S1x4096
  reduces_S1x4096_S1 : S1x4096.Reduces [1] S1
  shapeCasts_S1_S1x1 : S1.ShapeCasts S1x1
  inpos_S1x1_p0_0 : ∀ a, (![0, 0] : Fin 2 → Nat) a < S1x1.size a
  concatenates_S1x1_S1x1_S1x2_d1 : Shape.Concatenates [S1x1, S1x1] S1x2 1
  inb_S1x1x2_S1x1x2_0_0_0 : ∀ a, (![0, 0, 0] : Fin 3 → Nat) a + S1x1x2.size a ≤ S1x1x2.size a
  h_S1x1x2 : 0 < S1x1x2.numel
  shapeCasts_S1x1x2_S1x2 : S1x1x2.ShapeCasts S1x2
  shapeCasts_S1x2_S1x1x2 : S1x2.ShapeCasts S1x1x2
  slices_S1x1x2_S1x1x1_0_0_0 : S1x1x2.Slices ![0, 0, 0] S1x1x1
  shapeCasts_S1x1x1_S_ : S1x1x1.ShapeCasts S_
  slices_S1x1x2_S1x1x1_0_0_1 : S1x1x2.Slices ![0, 0, 1] S1x1x1
  dot_S4096x68_S4096x68_S4096x4096_1_1_0_0_n_n_wf : DotDims.WF S4096x68 S4096x68 S4096x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x64.size a ≤ S4x4096x64.size a
  hwx0_0 : ∀ i : grid0.Coords, EltTy.bits .f32 = 32 ∨ (Rect.block (s := S4x4096x64) S1x4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x64.size a ≤ S4x4096x64.size a
  hwx0_1 : ∀ i : grid0.Coords, EltTy.bits .f32 = 32 ∨ (Rect.block (s := S4x4096x64) S1x4096x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1x2.size a ≤ S1x1x2.size a
  hwx0_2 : ∀ i : grid0.Coords, EltTy.bits .f32 = 32 ∨ (Rect.block (s := S1x1x2) S1x1x2.size (cc0_transform_2 i) (hinb0_2 i)).WholeWords (EltTy.packing .f32)

variable [Facts₀]

def dot_S4096x68_S4096x68_S4096x4096_1_1_0_0_n_n : DotDims S4096x68 S4096x68 S4096x4096 where
  lhsContracting := [1]
  rhsContracting := [1]
  lhsNonContracting := [0]
  rhsNonContracting := [0]
  lhsBatch := []
  rhsBatch := []
  wf := dot_S4096x68_S4096x68_S4096x4096_1_1_0_0_n_n_wf

abbrev win0_0 : Pipeline.Window sig grid0 :=
  Pipeline.Window.ofSpec (Memref.whole main_arg0) S1x4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x2.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond1 i == 1#1) && !(k0_cond2 i == 1#1) | ⟨_ + 3, h⟩ => absurd h (Nat.not_lt.2 (Nat.le_add_left _ _))

class Facts : Prop extends Facts₀ where

variable [Facts]
-- ==== ReferenceIdeal.lean ====
abbrev S4x4096x64 : Shape := ⟨3, ![4, 4096, 64]⟩
abbrev S_ : Shape := ⟨0, ![]⟩
abbrev S4x4096 : Shape := ⟨2, ![4, 4096]⟩
abbrev S4x4096x1 : Shape := ⟨3, ![4, 4096, 1]⟩
abbrev S4x1x4096 : Shape := ⟨3, ![4, 1, 4096]⟩
abbrev S4x4096x4096 : Shape := ⟨3, ![4, 4096, 4096]⟩
abbrev S4 : Shape := ⟨1, ![4]⟩

abbrev nBuf : Space → Nat
  | .hbm => 43
  | .vmem => 0
  | .smem => 0
  | _ => 0

abbrev bufTy : (tb : Table) → Fin (tcTables nBuf tb) → BufTy
  | .hbm, ⟨0, _⟩ => ⟨S4x4096x64, .f32⟩
  | .hbm, ⟨1, _⟩ => ⟨S4x4096x64, .f32⟩
  | .hbm, ⟨2, _⟩ => ⟨S4x4096x64, .f32⟩
  | .hbm, ⟨3, _⟩ => ⟨S_, .f32⟩
  | .hbm, ⟨4, _⟩ => ⟨S4x4096, .f32⟩
  | .hbm, ⟨5, _⟩ => ⟨S4x4096x1, .f32⟩
  | .hbm, ⟨6, _⟩ => ⟨S4x4096x64, .f32⟩
  | .hbm, ⟨7, _⟩ => ⟨S_, .f32⟩
  | .hbm, ⟨8, _⟩ => ⟨S4x4096, .f32⟩
  | .hbm, ⟨9, _⟩ => ⟨S4x1x4096, .f32⟩
  | .hbm, ⟨10, _⟩ => ⟨S4x4096x4096, .f32⟩
  | .hbm, ⟨11, _⟩ => ⟨S4x4096x4096, .f32⟩
  | .hbm, ⟨12, _⟩ => ⟨S4x4096x4096, .f32⟩
  | .hbm, ⟨13, _⟩ => ⟨S4x4096x4096, .f32⟩
  | .hbm, ⟨14, _⟩ => ⟨S_, .f32⟩
  | .hbm, ⟨15, _⟩ => ⟨S4x4096x4096, .f32⟩
  | .hbm, ⟨16, _⟩ => ⟨S4x4096x4096, .f32⟩
  | .hbm, ⟨17, _⟩ => ⟨S4x4096x4096, .f32⟩
  | .hbm, ⟨18, _⟩ => ⟨S_, .f32⟩
  | .hbm, ⟨19, _⟩ => ⟨S4x4096x4096, .f32⟩
  | .hbm, ⟨20, _⟩ => ⟨S4x4096x4096, .f32⟩
  | .hbm, ⟨21, _⟩ => ⟨S4x4096x4096, .f32⟩
  | .hbm, ⟨22, _⟩ => ⟨S_, .f32⟩
  | .hbm, ⟨23, _⟩ => ⟨S4x4096, .f32⟩
  | .hbm, ⟨24, _⟩ => ⟨S_, .f32⟩
  | .hbm, ⟨25, _⟩ => ⟨S4x4096, .f32⟩
  | .hbm, ⟨26, _⟩ => ⟨S_, .f32⟩
  | .hbm, ⟨27, _⟩ => ⟨S4, .f32⟩
  | .hbm, ⟨28, _⟩ => ⟨S_, .f32⟩
  | .hbm, ⟨29, _⟩ => ⟨S4, .f32⟩
  | .hbm, ⟨30, _⟩ => ⟨S4, .f32⟩
  | .hbm, ⟨31, _⟩ => ⟨S_, .f32⟩
  | .hbm, ⟨32, _⟩ => ⟨S4, .f32⟩
  | .hbm, ⟨33, _⟩ => ⟨S_, .f32⟩
  | .hbm, ⟨34, _⟩ => ⟨S4, .f32⟩
  | .hbm, ⟨35, _⟩ => ⟨S4, .f32⟩
  | .hbm, ⟨36, _⟩ => ⟨S4, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | _, _ => ⟨S4x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_9 : Ref sig .tc := ⟨.hbm, 37, rfl⟩
abbrev main_v25 : Ref sig .tc := ⟨.hbm, 38, rfl⟩
abbrev main_cst_10 : Ref sig .tc := ⟨.hbm, 39, rfl⟩
abbrev main_v26 : Ref sig .tc := ⟨.hbm, 40, rfl⟩
abbrev main_cst_11 : Ref sig .tc := ⟨.hbm, 41, rfl⟩
abbrev main_v27 : Ref sig .tc := ⟨.hbm, 42, rfl⟩

abbrev nD : Nat := 1
abbrev τ : Topo := Topo.v7x

variable {F : FTy → Type} [FloatOps F]

class Facts₀ : Prop where
  reducesTo_S4x4096x64_S4x4096_d2 : S4x4096x64.ReducesTo [2] S4x4096
  h_S_ : 0 < S_.numel
  bcast_S4x4096_S4x4096x1_0_1 : S4x4096.BroadcastsInDim S4x4096x1 (![0, 1] : Fin 2 → Fin S4x4096x1.rank)
  bcast_S4x4096_S4x1x4096_0_2 : S4x4096.BroadcastsInDim S4x1x4096 (![0, 2] : Fin 2 → Fin S4x1x4096.rank)
  bcast_S4x4096x1_S4x4096x4096_0_1_2 : S4x4096x1.BroadcastsInDim S4x4096x4096 (![0, 1, 2] : Fin 3 → Fin S4x4096x4096.rank)
  bcast_S4x1x4096_S4x4096x4096_0_1_2 : S4x1x4096.BroadcastsInDim S4x4096x4096 (![0, 1, 2] : Fin 3 → Fin S4x4096x4096.rank)
  bcast_S_S4x4096x4096 : S_.BroadcastsInDim S4x4096x4096 (![] : Fin 0 → Fin S4x4096x4096.rank)
  reducesTo_S4x4096x4096_S4x4096_d2 : S4x4096x4096.ReducesTo [2] S4x4096
  reducesTo_S4x4096x4096_S4x4096_d1 : S4x4096x4096.ReducesTo [1] S4x4096
  reducesTo_S4x4096_S4_d1 : S4x4096.ReducesTo [1] S4
  bcast_S_S4 : S_.BroadcastsInDim S4 (![] : Fin 0 → Fin S4.rank)
  reducesTo_S4_S_d0 : S4.ReducesTo [0] S_
  dot_S4x4096x64_S4x4096x64_S4x4096x4096_2_2_1_1_0_0_wf : DotDims.WF S4x4096x64 S4x4096x64 S4x4096x4096 [2] [2] [1] [1] [0] [0]

variable [Facts₀]

def dot_S4x4096x64_S4x4096x64_S4x4096x4096_2_2_1_1_0_0 : DotDims S4x4096x64 S4x4096x64 S4x4096x4096 where
  lhsContracting := [2]
  rhsContracting := [2]
  lhsNonContracting := [1]
  rhsNonContracting := [1]
  lhsBatch := [0]
  rhsBatch := [0]
  wf := dot_S4x4096x64_S4x4096x64_S4x4096x4096_2_2_1_1_0_0_wf

class Facts : Prop extends Facts₀ where

variable [Facts]
-- ==== Proof.BodyBits.lean ====
/-
  The pipeline's body, point by point, for `Kernel`.

  The grid has four points, one per batch entry.  At every point the body reads the point's block of
  the first argument and of the second, computes from them a pair of numbers (`pointSums`: the sum over
  the rows of the first block of each row's distance to the nearest row of the second, and the same with
  the roles exchanged), and keeps a running pair in its one output block [1,1,2]: at the first point it
  stores the pair, at each later point it loads what it stored before, adds the pair and stores the sum.
  The block's index never moves, so it is written back once, after the last point.

  This module states what the output block holds after each point (`sumsAt`, by recursion on the point),
  runs the body in its two cases (first point / later point), and assembles the run of the whole
  program: every execution terminates, the two argument arrays are unchanged, and the output array
  ends at what the proof data computes from `sumsAt`.  Everything here holds at any float instance.
-/
import proofs.«144906_g68143951118336_cont_9to1c4b_323_22_alg».proof.Proof.Gen.Kernel.Frame
import proofs.«144906_g68143951118336_cont_9to1c4b_323_22_alg».proof.Proof.Gen.Kernel.Skeleton
import Idealize.ShloMosaic.Lib.Pipeline.Value

set_option maxRecDepth 16384

noncomputable section

namespace Cert.Kernel.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two cases of a point -/

/-- The body's first conditional: the point is the first one. -/
abbrev isFirst (i : grid0.Coords) : Prop := k0_cond1 i = 1#1
/-- The body's second conditional: the point is a later one. -/
abbrev isLater (i : grid0.Coords) : Prop := k0_cond2 i = 1#1

theorem isFirst_iff : ∀ t : Fin cfg0.N, isFirst (grid0.coords t) ↔ t.val = 0 :=
  (by decide +kernel : ∀ t : Fin grid0.N, isFirst (grid0.coords t) ↔ t.val = 0)
theorem isLater_iff : ∀ t : Fin cfg0.N, isLater (grid0.coords t) ↔ 1 ≤ t.val :=
  (by decide +kernel : ∀ t : Fin grid0.N, isLater (grid0.coords t) ↔ 1 ≤ t.val)

/-- At every point one of the two conditionals fires, so the output block is stored into at every point. -/
theorem stored_everywhere : ∀ i : grid0.Coords, cfg0.idle 2 i = false := by decide +kernel
theorem live_in0 : ∀ t : Fin cfg0.N, cfg0.idle 0 (grid0.coords t) = false := by decide +kernel
theorem live_in1 : ∀ t : Fin cfg0.N, cfg0.idle 1 (grid0.coords t) = false := by decide +kernel

/-- The windows' current staging memrefs at a point, as the pipeline passes them to the body. -/
abbrev stA (t : Fin cfg0.N) : Memref sig .tc .vmem S1x4096x64 .f32 := win0_0.stage (cfg0.slots t 0)
abbrev hstA (t : Fin cfg0.N) : (stA t).IsWhole := hstage0_0 ((cfg0.slots t 0).cast nbuf0_0)
abbrev stB (t : Fin cfg0.N) : Memref sig .tc .vmem S1x4096x64 .f32 := win0_1.stage (cfg0.slots t 1)
abbrev hstB (t : Fin cfg0.N) : (stB t).IsWhole := hstage0_1 ((cfg0.slots t 1).cast nbuf0_1)
abbrev stO (t : Fin cfg0.N) : Memref sig .tc .vmem S1x1x2 .f32 := win0_2.stage (cfg0.slots t 2)
abbrev hstO (t : Fin cfg0.N) : (stO t).IsWhole := hstage0_2 ((cfg0.slots t 2).cast nbuf0_2)

/-- What the first point stores: the point's pair, as a [1,1,2] block. -/
def storedFirst (xa xb : Vec F S1x4096x64 .f32) : Vec F S1x1x2 .f32 :=
  k0_pay2 (k0_pay5 xb xa) (k0_pay6 xb xa)
/-- What a later point stores: the block it found plus the point's pair. -/
def storedLater (xa xb : Vec F S1x4096x64 .f32) (prev : Vec F S1x1x2 .f32) : Vec F S1x1x2 .f32 :=
  k0_pay3 (k0_pay5 xb xa) (k0_pay6 xb xa) prev

theorem zero_off : (![0, 0, 0] : Fin 3 → ℕ) = fun _ => 0 := by
  funext a; fin_cases a <;> rfl

set_option maxHeartbeats 1000000 in
/-- The body at the first point, on whole staging memrefs: the inputs at their blocks, the output block at
    anything; it ends with the inputs as they were and the output block at the point's pair. -/
theorem run_first (c : Dev nD) (i : grid0.Coords) (arg1 : Memref sig .tc .vmem S1x4096x64 .f32) (harg1 : arg1.IsWhole)
    (arg2 : Memref sig .tc .vmem S1x4096x64 .f32) (harg2 : arg2.IsWhole) (arg3 : Memref sig .tc .vmem S1x1x2 .f32) (harg3 : arg3.IsWhole)
    (hc0 : isFirst i) (hc1 : ¬isLater i) (xa xb : Vec F S1x4096x64 .f32) (xo : Vec F S1x1x2 .f32) :
    ∀ (E : Set ℕ) (K : PUnit → sProp 𝕄),
      iprop(owns (c : Thread nD τ) arg1 fullShare xa ∗ owns (c : Thread nD τ) arg2 fullShare xb ∗ owns (c : Thread nD τ) arg3 fullShare xo
          ∗ (iprop(owns (c : Thread nD τ) arg1 fullShare xa ∗ owns (c : Thread nD τ) arg2 fullShare xb
              ∗ owns (c : Thread nD τ) arg3 fullShare (storedFirst xa xb)) -∗ K ⟨⟩))
        ⊢ wp frame (wpE (defs₀ (F := F)) Variants.none c none) E (cc0__chamfer_batch_kernel i arg1 harg1 arg2 harg2 arg3 harg3) K := by
  intro E K
  simp only [cc0__chamfer_batch_kernel_eq_skeleton]; unfold cc0__chamfer_batch_kernel_skel
  simp only [k0_part1_eq_skeleton]
  unfold owns
  iintro ⟨⟨%f0, %hf0, H0⟩, ⟨%f1, %hf1, H1⟩, ⟨%f2, %hf2, H2⟩, Hk⟩
  obtain rfl := harg1.eq_unread hf0; obtain rfl := harg2.eq_unread hf1; obtain rfl := harg3.eq_unread hf2
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  iexists _; isplitr; swap; · iexact H2
  ipureintro
  rw [View.read_writes_eq_canon _ _ _ (fun y => ⟨_, List.mem_singleton_self _, View.mem_set_unit_zero zero_off inb_S1x1x2_S1x1x2_0_0_0 y⟩),
    View.canon_unit_zero zero_off]
  unfold storedFirst
  sl_unfold_words
  simp only [View.readAt_eq_ld, harg1.read_unread, harg2.read_unread, View.ld_unit_zero (S := S1x4096x64) zero_off]

set_option maxHeartbeats 1000000 in
/-- The body at a later point: the output block at what the point before left (`xo`); it ends with the
    inputs as they were and the output block at `xo` plus the point's pair. -/
theorem run_later (c : Dev nD) (i : grid0.Coords) (arg1 : Memref sig .tc .vmem S1x4096x64 .f32) (harg1 : arg1.IsWhole)
    (arg2 : Memref sig .tc .vmem S1x4096x64 .f32) (harg2 : arg2.IsWhole) (arg3 : Memref sig .tc .vmem S1x1x2 .f32) (harg3 : arg3.IsWhole)
    (hc0 : ¬isFirst i) (hc1 : isLater i) (xa xb : Vec F S1x4096x64 .f32) (xo : Vec F S1x1x2 .f32) :
    ∀ (E : Set ℕ) (K : PUnit → sProp 𝕄),
      iprop(owns (c : Thread nD τ) arg1 fullShare xa ∗ owns (c : Thread nD τ) arg2 fullShare xb ∗ owns (c : Thread nD τ) arg3 fullShare xo
          ∗ (iprop(owns (c : Thread nD τ) arg1 fullShare xa ∗ owns (c : Thread nD τ) arg2 fullShare xb
              ∗ owns (c : Thread nD τ) arg3 fullShare (storedLater xa xb xo)) -∗ K ⟨⟩))
        ⊢ wp frame (wpE (defs₀ (F := F)) Variants.none c none) E (cc0__chamfer_batch_kernel i arg1 harg1 arg2 harg2 arg3 harg3) K := by
  intro E K
  simp only [cc0__chamfer_batch_kernel_eq_skeleton]; unfold cc0__chamfer_batch_kernel_skel
  simp only [k0_part1_eq_skeleton]
  unfold owns
  iintro ⟨⟨%f0, %hf0, H0⟩, ⟨%f1, %hf1, H1⟩, ⟨%f2, %hf2, H2⟩, Hk⟩
  obtain rfl := harg1.eq_unread hf0; obtain rfl := harg2.eq_unread hf1; obtain rfl := harg3.eq_unread hf2
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  iexists _; isplitr; swap; · iexact H2
  ipureintro
  rw [View.read_writes_eq_canon _ _ _ (fun y => ⟨_, List.mem_singleton_self _, View.mem_set_unit_zero zero_off inb_S1x1x2_S1x1x2_0_0_0 y⟩),
    View.canon_unit_zero zero_off]
  unfold storedLater
  sl_unfold_words
  simp only [View.readAt_eq_ld, harg1.read_unread, harg2.read_unread, harg3.read_unread,
    View.ld_unit_zero (S := S1x4096x64) zero_off, View.ld_unit_zero (S := S1x1x2) zero_off]

/-! ## What the output block holds after each point -/

/-- The running pair after the body at position `n`: at the first point the point's pair, at a later point
    what the point before left plus the point's pair. -/
def sumsAt (c : Dev nD) : (n : ℕ) → n < cfg0.N → Vec F S1x1x2 .f32
  | 0, hn => storedFirst (iblk m c 0 ⟨0, hn⟩) (iblk m c 1 ⟨0, hn⟩)
  | n + 1, hn => storedLater (iblk m c 0 ⟨n + 1, hn⟩) (iblk m c 1 ⟨n + 1, hn⟩) (sumsAt c n (Nat.lt_of_succ_lt hn))

theorem sumsAt_first (c : Dev nD) (t : Fin cfg0.N) (h0 : t.val = 0) :
    sumsAt m c t.val t.isLt = storedFirst (iblk m c 0 t) (iblk m c 1 t) := by
  obtain ⟨n, hn⟩ := t
  cases n with
  | zero => rfl
  | succ n => exact absurd h0 (Nat.succ_ne_zero n)

theorem sumsAt_later (c : Dev nD) (t : Fin cfg0.N) (h0 : t.val ≠ 0) :
    sumsAt m c t.val t.isLt = storedLater (iblk m c 0 t) (iblk m c 1 t)
      (sumsAt m c (t.val - 1) (Nat.lt_of_le_of_lt (Nat.sub_le _ _) t.isLt)) := by
  obtain ⟨n, hn⟩ := t
  cases n with
  | zero => exact absurd rfl h0
  | succ n => rfl

/-! ## The pipeline's proof data -/

/-- The arrays as the region finds them; after the body at a point each input's buffer at its block and the
    output block at the running pair; the invariant is the class's; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => sumsAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_out (c : Dev nD) (t : Fin cfg0.N) : (dats m 0 c).after 2 t = sumsAt m c t.val t.isLt := by dsimp only [dats]

/-- Each input's current staging buffer holds its block at every point. -/
theorem before_in0 (c : Dev nD) (t : Fin cfg0.N) (d) : (dats m 0 c).before 0 t d = iblk m c 0 t :=
  before0_0_of m (dats m 0 c) (A_eq m c 0) (after_in0 m c) t d
theorem before_in1 (c : Dev nD) (t : Fin cfg0.N) (d) : (dats m 0 c).before 1 t d = iblk m c 1 t :=
  before0_1_of m (dats m 0 c) (A_eq m c 1) (after_in1 m c) t d

/-- At a later point the output block's staging buffer holds what the body left at the point before: the block
    is not written back in between, and every point stores into it. -/
theorem before_out_later (c : Dev nD) (t : Fin cfg0.N) (h0 : t.val ≠ 0) (d) :
    (dats m 0 c).before 2 t d = sumsAt m c (t.val - 1) (Nat.lt_of_le_of_lt (Nat.sub_le _ _) t.isLt) := by
  have hN : t.val < 4 := lt_of_lt_of_eq t.isLt (show cfg0.N = 4 from N_0)
  rw [Dat.before_out_kept _ 2 rfl t h0 (Bool.eq_false_iff.mpr fun h => by have := (flush0_2 _).mp h; dsimp only at this; omega)
    stored_everywhere (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (stA t) fullShare ((dats m 0 c).before 0 t d))
    ∗ (∃ d, owns (c : Thread nD τ) (stB t) fullShare ((dats m 0 c).before 1 t d))
    ∗ (∃ d, owns (c : Thread nD τ) (stO t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 800000 in
/-- The body at any point: the inputs' memrefs hold their blocks; the point is the first or a later one; at a later
    one the output block holds what the point before left; the matching run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (stA t) fullShare ((dats m 0 c).after 0 t) from by
    unfold Dat.leavesExact; rw [live_in0 t], after_in0]
  rw [show (dats m 0 c).leavesExact 1 t = owns (c : Thread nD τ) (stB t) fullShare ((dats m 0 c).after 1 t) from by
    unfold Dat.leavesExact; rw [live_in1 t], after_in1]
  rw [show (dats m 0 c).leavesExact 2 t = owns (c : Thread nD τ) (stO t) fullShare ((dats m 0 c).after 2 t) from by
    unfold Dat.leavesExact; rw [stored_everywhere (grid0.coords t)], after_out]
  have hN : t.val < 4 := lt_of_lt_of_eq t.isLt (show cfg0.N = 4 from N_0)
  by_cases h0 : t.val = 0
  · rw [sumsAt_first m c t h0]
    iintro ⟨HΦ, Ho, ⟨%d0, H0⟩, ⟨%d1, H1⟩, ⟨%d2, H2⟩⟩
    iapply ((run_first c (grid0.coords t) _ _ _ _ _ _ ((isFirst_iff t).mpr h0) (fun h => by have := (isLater_iff t).mp h; omega)
      (iblk m c 0 t) (iblk m c 1 t) _) Set.univ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2
  · rw [sumsAt_later m c t h0]
    simp only [before_out_later m c t h0]
    iintro ⟨HΦ, Ho, ⟨%d0, H0⟩, ⟨%d1, H1⟩, ⟨%d2, H2⟩⟩
    iapply ((run_later c (grid0.coords t) _ _ _ _ _ _ (fun h => h0 ((isFirst_iff t).mp h)) ((isLater_iff t).mpr (by omega))
      (iblk m c 0 t) (iblk m c 1 t) _) Set.univ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates; every array of the pipeline ends at what the proof data
    computes, and every other buffer at what the host lines after the region compute from those. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs and its two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Acc

end
-- ==== Proof.BodyIdeal.lean ====
/-
  The pipeline's body, point by point, for `KernelIdeal`.

  The grid has four points, one per batch entry.  At every point the body reads the point's block of
  the first argument and of the second, computes from them a pair of numbers (`pointSums`: the sum over
  the rows of the first block of each row's distance to the nearest row of the second, and the same with
  the roles exchanged), and keeps a running pair in its one output block [1,1,2]: at the first point it
  stores the pair, at each later point it loads what it stored before, adds the pair and stores the sum.
  The block's index never moves, so it is written back once, after the last point.

  This module states what the output block holds after each point (`sumsAt`, by recursion on the point),
  runs the body in its two cases (first point / later point), and assembles the run of the whole
  program: every execution terminates, the two argument arrays are unchanged, and the output array
  ends at what the proof data computes from `sumsAt`.  Everything here holds at any float instance.
-/
import proofs.«144906_g68143951118336_cont_9to1c4b_323_22_alg».proof.Proof.Gen.KernelIdeal.Frame
import proofs.«144906_g68143951118336_cont_9to1c4b_323_22_alg».proof.Proof.Gen.KernelIdeal.Skeleton
import Idealize.ShloMosaic.Lib.Pipeline.Value

set_option maxRecDepth 16384

noncomputable section

namespace Cert.KernelIdeal.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two cases of a point -/

/-- The body's first conditional: the point is the first one. -/
abbrev isFirst (i : grid0.Coords) : Prop := k0_cond1 i = 1#1
/-- The body's second conditional: the point is a later one. -/
abbrev isLater (i : grid0.Coords) : Prop := k0_cond2 i = 1#1

theorem isFirst_iff : ∀ t : Fin cfg0.N, isFirst (grid0.coords t) ↔ t.val = 0 :=
  (by decide +kernel : ∀ t : Fin grid0.N, isFirst (grid0.coords t) ↔ t.val = 0)
theorem isLater_iff : ∀ t : Fin cfg0.N, isLater (grid0.coords t) ↔ 1 ≤ t.val :=
  (by decide +kernel : ∀ t : Fin grid0.N, isLater (grid0.coords t) ↔ 1 ≤ t.val)

/-- At every point one of the two conditionals fires, so the output block is stored into at every point. -/
theorem stored_everywhere : ∀ i : grid0.Coords, cfg0.idle 2 i = false := by decide +kernel
theorem live_in0 : ∀ t : Fin cfg0.N, cfg0.idle 0 (grid0.coords t) = false := by decide +kernel
theorem live_in1 : ∀ t : Fin cfg0.N, cfg0.idle 1 (grid0.coords t) = false := by decide +kernel

/-- The windows' current staging memrefs at a point, as the pipeline passes them to the body. -/
abbrev stA (t : Fin cfg0.N) : Memref sig .tc .vmem S1x4096x64 .f32 := win0_0.stage (cfg0.slots t 0)
abbrev hstA (t : Fin cfg0.N) : (stA t).IsWhole := hstage0_0 ((cfg0.slots t 0).cast nbuf0_0)
abbrev stB (t : Fin cfg0.N) : Memref sig .tc .vmem S1x4096x64 .f32 := win0_1.stage (cfg0.slots t 1)
abbrev hstB (t : Fin cfg0.N) : (stB t).IsWhole := hstage0_1 ((cfg0.slots t 1).cast nbuf0_1)
abbrev stO (t : Fin cfg0.N) : Memref sig .tc .vmem S1x1x2 .f32 := win0_2.stage (cfg0.slots t 2)
abbrev hstO (t : Fin cfg0.N) : (stO t).IsWhole := hstage0_2 ((cfg0.slots t 2).cast nbuf0_2)

/-- What the first point stores: the point's pair, as a [1,1,2] block. -/
def storedFirst (xa xb : Vec F S1x4096x64 .f32) : Vec F S1x1x2 .f32 :=
  k0_pay2 (k0_pay6 xb xa) (k0_pay7 xb xa)
/-- What a later point stores: the block it found plus the point's pair. -/
def storedLater (xa xb : Vec F S1x4096x64 .f32) (prev : Vec F S1x1x2 .f32) : Vec F S1x1x2 .f32 :=
  k0_pay3 (k0_pay6 xb xa) (k0_pay7 xb xa) prev

theorem zero_off : (![0, 0, 0] : Fin 3 → ℕ) = fun _ => 0 := by
  funext a; fin_cases a <;> rfl

set_option maxHeartbeats 1000000 in
/-- The body at the first point, on whole staging memrefs: the inputs at their blocks, the output block at
    anything; it ends with the inputs as they were and the output block at the point's pair. -/
theorem run_first (c : Dev nD) (i : grid0.Coords) (arg1 : Memref sig .tc .vmem S1x4096x64 .f32) (harg1 : arg1.IsWhole)
    (arg2 : Memref sig .tc .vmem S1x4096x64 .f32) (harg2 : arg2.IsWhole) (arg3 : Memref sig .tc .vmem S1x1x2 .f32) (harg3 : arg3.IsWhole)
    (hc0 : isFirst i) (hc1 : ¬isLater i) (xa xb : Vec F S1x4096x64 .f32) (xo : Vec F S1x1x2 .f32) :
    ∀ (E : Set ℕ) (K : PUnit → sProp 𝕄),
      iprop(owns (c : Thread nD τ) arg1 fullShare xa ∗ owns (c : Thread nD τ) arg2 fullShare xb ∗ owns (c : Thread nD τ) arg3 fullShare xo
          ∗ (iprop(owns (c : Thread nD τ) arg1 fullShare xa ∗ owns (c : Thread nD τ) arg2 fullShare xb
              ∗ owns (c : Thread nD τ) arg3 fullShare (storedFirst xa xb)) -∗ K ⟨⟩))
        ⊢ wp frame (wpE (defs₀ (F := F)) Variants.none c none) E (cc0__chamfer_batch_kernel i arg1 harg1 arg2 harg2 arg3 harg3) K := by
  intro E K
  simp only [cc0__chamfer_batch_kernel_eq_skeleton]; unfold cc0__chamfer_batch_kernel_skel
  simp only [k0_part1_eq_skeleton]
  unfold owns
  iintro ⟨⟨%f0, %hf0, H0⟩, ⟨%f1, %hf1, H1⟩, ⟨%f2, %hf2, H2⟩, Hk⟩
  obtain rfl := harg1.eq_unread hf0; obtain rfl := harg2.eq_unread hf1; obtain rfl := harg3.eq_unread hf2
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  iexists _; isplitr; swap; · iexact H2
  ipureintro
  rw [View.read_writes_eq_canon _ _ _ (fun y => ⟨_, List.mem_singleton_self _, View.mem_set_unit_zero zero_off inb_S1x1x2_S1x1x2_0_0_0 y⟩),
    View.canon_unit_zero zero_off]
  unfold storedFirst
  sl_unfold_words
  simp only [View.readAt_eq_ld, harg1.read_unread, harg2.read_unread, View.ld_unit_zero (S := S1x4096x64) zero_off]

set_option maxHeartbeats 1000000 in
/-- The body at a later point: the output block at what the point before left (`xo`); it ends with the
    inputs as they were and the output block at `xo` plus the point's pair. -/
theorem run_later (c : Dev nD) (i : grid0.Coords) (arg1 : Memref sig .tc .vmem S1x4096x64 .f32) (harg1 : arg1.IsWhole)
    (arg2 : Memref sig .tc .vmem S1x4096x64 .f32) (harg2 : arg2.IsWhole) (arg3 : Memref sig .tc .vmem S1x1x2 .f32) (harg3 : arg3.IsWhole)
    (hc0 : ¬isFirst i) (hc1 : isLater i) (xa xb : Vec F S1x4096x64 .f32) (xo : Vec F S1x1x2 .f32) :
    ∀ (E : Set ℕ) (K : PUnit → sProp 𝕄),
      iprop(owns (c : Thread nD τ) arg1 fullShare xa ∗ owns (c : Thread nD τ) arg2 fullShare xb ∗ owns (c : Thread nD τ) arg3 fullShare xo
          ∗ (iprop(owns (c : Thread nD τ) arg1 fullShare xa ∗ owns (c : Thread nD τ) arg2 fullShare xb
              ∗ owns (c : Thread nD τ) arg3 fullShare (storedLater xa xb xo)) -∗ K ⟨⟩))
        ⊢ wp frame (wpE (defs₀ (F := F)) Variants.none c none) E (cc0__chamfer_batch_kernel i arg1 harg1 arg2 harg2 arg3 harg3) K := by
  intro E K
  simp only [cc0__chamfer_batch_kernel_eq_skeleton]; unfold cc0__chamfer_batch_kernel_skel
  simp only [k0_part1_eq_skeleton]
  unfold owns
  iintro ⟨⟨%f0, %hf0, H0⟩, ⟨%f1, %hf1, H1⟩, ⟨%f2, %hf2, H2⟩, Hk⟩
  obtain rfl := harg1.eq_unread hf0; obtain rfl := harg2.eq_unread hf1; obtain rfl := harg3.eq_unread hf2
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  iexists _; isplitr; swap; · iexact H2
  ipureintro
  rw [View.read_writes_eq_canon _ _ _ (fun y => ⟨_, List.mem_singleton_self _, View.mem_set_unit_zero zero_off inb_S1x1x2_S1x1x2_0_0_0 y⟩),
    View.canon_unit_zero zero_off]
  unfold storedLater
  sl_unfold_words
  simp only [View.readAt_eq_ld, harg1.read_unread, harg2.read_unread, harg3.read_unread,
    View.ld_unit_zero (S := S1x4096x64) zero_off, View.ld_unit_zero (S := S1x1x2) zero_off]

/-! ## What the output block holds after each point -/

/-- The running pair after the body at position `n`: at the first point the point's pair, at a later point
    what the point before left plus the point's pair. -/
def sumsAt (c : Dev nD) : (n : ℕ) → n < cfg0.N → Vec F S1x1x2 .f32
  | 0, hn => storedFirst (iblk m c 0 ⟨0, hn⟩) (iblk m c 1 ⟨0, hn⟩)
  | n + 1, hn => storedLater (iblk m c 0 ⟨n + 1, hn⟩) (iblk m c 1 ⟨n + 1, hn⟩) (sumsAt c n (Nat.lt_of_succ_lt hn))

theorem sumsAt_first (c : Dev nD) (t : Fin cfg0.N) (h0 : t.val = 0) :
    sumsAt m c t.val t.isLt = storedFirst (iblk m c 0 t) (iblk m c 1 t) := by
  obtain ⟨n, hn⟩ := t
  cases n with
  | zero => rfl
  | succ n => exact absurd h0 (Nat.succ_ne_zero n)

theorem sumsAt_later (c : Dev nD) (t : Fin cfg0.N) (h0 : t.val ≠ 0) :
    sumsAt m c t.val t.isLt = storedLater (iblk m c 0 t) (iblk m c 1 t)
      (sumsAt m c (t.val - 1) (Nat.lt_of_le_of_lt (Nat.sub_le _ _) t.isLt)) := by
  obtain ⟨n, hn⟩ := t
  cases n with
  | zero => exact absurd rfl h0
  | succ n => rfl

/-! ## The pipeline's proof data -/

/-- The arrays as the region finds them; after the body at a point each input's buffer at its block and the
    output block at the running pair; the invariant is the class's; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => sumsAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_out (c : Dev nD) (t : Fin cfg0.N) : (dats m 0 c).after 2 t = sumsAt m c t.val t.isLt := by dsimp only [dats]

/-- Each input's current staging buffer holds its block at every point. -/
theorem before_in0 (c : Dev nD) (t : Fin cfg0.N) (d) : (dats m 0 c).before 0 t d = iblk m c 0 t :=
  before0_0_of m (dats m 0 c) (A_eq m c 0) (after_in0 m c) t d
theorem before_in1 (c : Dev nD) (t : Fin cfg0.N) (d) : (dats m 0 c).before 1 t d = iblk m c 1 t :=
  before0_1_of m (dats m 0 c) (A_eq m c 1) (after_in1 m c) t d

/-- At a later point the output block's staging buffer holds what the body left at the point before: the block
    is not written back in between, and every point stores into it. -/
theorem before_out_later (c : Dev nD) (t : Fin cfg0.N) (h0 : t.val ≠ 0) (d) :
    (dats m 0 c).before 2 t d = sumsAt m c (t.val - 1) (Nat.lt_of_le_of_lt (Nat.sub_le _ _) t.isLt) := by
  have hN : t.val < 4 := lt_of_lt_of_eq t.isLt (show cfg0.N = 4 from N_0)
  rw [Dat.before_out_kept _ 2 rfl t h0 (Bool.eq_false_iff.mpr fun h => by have := (flush0_2 _).mp h; dsimp only at this; omega)
    stored_everywhere (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (stA t) fullShare ((dats m 0 c).before 0 t d))
    ∗ (∃ d, owns (c : Thread nD τ) (stB t) fullShare ((dats m 0 c).before 1 t d))
    ∗ (∃ d, owns (c : Thread nD τ) (stO t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 800000 in
/-- The body at any point: the inputs' memrefs hold their blocks; the point is the first or a later one; at a later
    one the output block holds what the point before left; the matching run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (stA t) fullShare ((dats m 0 c).after 0 t) from by
    unfold Dat.leavesExact; rw [live_in0 t], after_in0]
  rw [show (dats m 0 c).leavesExact 1 t = owns (c : Thread nD τ) (stB t) fullShare ((dats m 0 c).after 1 t) from by
    unfold Dat.leavesExact; rw [live_in1 t], after_in1]
  rw [show (dats m 0 c).leavesExact 2 t = owns (c : Thread nD τ) (stO t) fullShare ((dats m 0 c).after 2 t) from by
    unfold Dat.leavesExact; rw [stored_everywhere (grid0.coords t)], after_out]
  have hN : t.val < 4 := lt_of_lt_of_eq t.isLt (show cfg0.N = 4 from N_0)
  by_cases h0 : t.val = 0
  · rw [sumsAt_first m c t h0]
    iintro ⟨HΦ, Ho, ⟨%d0, H0⟩, ⟨%d1, H1⟩, ⟨%d2, H2⟩⟩
    iapply ((run_first c (grid0.coords t) _ _ _ _ _ _ ((isFirst_iff t).mpr h0) (fun h => by have := (isLater_iff t).mp h; omega)
      (iblk m c 0 t) (iblk m c 1 t) _) Set.univ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2
  · rw [sumsAt_later m c t h0]
    simp only [before_out_later m c t h0]
    iintro ⟨HΦ, Ho, ⟨%d0, H0⟩, ⟨%d1, H1⟩, ⟨%d2, H2⟩⟩
    iapply ((run_later c (grid0.coords t) _ _ _ _ _ _ (fun h => h0 ((isFirst_iff t).mp h)) ((isLater_iff t).mpr (by omega))
      (iblk m c 0 t) (iblk m c 1 t) _) Set.univ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates; every array of the pipeline ends at what the proof data
    computes, and every other buffer at what the host lines after the region compute from those. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs and its two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Acc

end
-- ==== Proof.KernelTail.lean ====
/-
  The idealized kernel's result as a function of the running pair.

  The output block [1,1,2] is the whole output array, written back once, after the last point, so the array
  ends at the running pair after point 3.  The host lines after the region take its two entries s₀ and s₁ and
  return (s₀ / 4096 + s₁ / 4096) / c, c the constant the program prints.
-/
import proofs.«144906_g68143951118336_cont_9to1c4b_323_22_alg».proof.Proof.BodyIdeal
import Idealize.ShloMosaic.Lib.StableHlo.Run

set_option maxRecDepth 16384

noncomputable section

namespace Cert.KernelIdeal.Acc

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen Idealize.ShloMosaic.StableHlo

variable {F : FTy → Type} [FloatOps F]
variable (m : (ℓ : Loc nD τ sig) → Buf (Elt F) ℓ) (ρ : Dev nD → PrngReg)

/-- The running pair after the last point, as contents of the output array (its one block is the array). -/
abbrev finalPair (c : Dev nD) : Buf (Elt F) ((c : Thread nD τ).loc main_v0) :=
  sumsAt m c 3 (by rw [show cfg0.N = 4 from N_0]; decide)

/-- The one write-back, after point 3, writes the running pair: the block at index (0,0,0) read through zero offsets
    is the array. -/
theorem written_back (c : Dev nD) (t : Fin cfg0.N) (hf : (cfg0.win 2).flush t = true) :
    (dats m 0 c).flushed 2 t = ((cfg0.win 2).blk t).view.read (Elt F) (finalPair m c) := by
  have hN : cfg0.N = 4 := N_0
  have h3 : t.val = 3 := by have := (flush0_2 t).mp hf; have := t.isLt; omega
  obtain rfl : t = t0_3 := Fin.ext h3
  show (cfg0.win 2).cut (grid0.coords t0_3) ((dats m 0 c).after 2 t0_3) = _
  rw [after_out]
  have hz' : (fun a => win0_2.index t0_3 a * main_v0.ty.shape.size a) = fun _ => 0 := funext fun a => by fin_cases a <;> decide
  exact (Memref.read_access_unit_zero (Elt F) main_v0 hz' (fun a => by rw [congrFun hz' a]; simp) (finalPair m c)).symm

/-- So the output array ends holding the running pair after point 3. -/
theorem final_out (c : Dev nD) : (dats m 0 c).arrAt 2 cfg0.N = finalPair m c :=
  (dats m 0 c).arrAt_eq_of_cover 2 (finalPair m c) (written_back m c) fun i =>
    ⟨t0_3, (flush0_2 t0_3).mpr rfl, by
      show i ∈ ((View.whole main_v0).slice (win0_2.rect t0_3)).set
      rw [View.set_slice_whole, Rect.mem_set_unit]
      intro a
      have h0 : (i 0 : Nat) < 1 := (i 0).isLt
      have h1 : (i 1 : Nat) < 1 := (i 1).isLt
      have h2 : (i 2 : Nat) < 2 := (i 2).isLt
      match a with
      | ⟨0, _⟩ => show win0_2.index t0_3 0 * win0_2.size 0 ≤ (i 0 : Nat) ∧ (i 0 : Nat) < win0_2.index t0_3 0 * win0_2.size 0 + win0_2.xsize (grid0.coords t0_3) 0
                  rw [show win0_2.index t0_3 0 * win0_2.size 0 = 0 from by decide +kernel, show win0_2.xsize (grid0.coords t0_3) 0 = 1 from by decide +kernel]; omega
      | ⟨1, _⟩ => show win0_2.index t0_3 1 * win0_2.size 1 ≤ (i 1 : Nat) ∧ (i 1 : Nat) < win0_2.index t0_3 1 * win0_2.size 1 + win0_2.xsize (grid0.coords t0_3) 1
                  rw [show win0_2.index t0_3 1 * win0_2.size 1 = 0 from by decide +kernel, show win0_2.xsize (grid0.coords t0_3) 1 = 1 from by decide +kernel]; omega
      | ⟨2, _⟩ => show win0_2.index t0_3 2 * win0_2.size 2 ≤ (i 2 : Nat) ∧ (i 2 : Nat) < win0_2.index t0_3 2 * win0_2.size 2 + win0_2.xsize (grid0.coords t0_3) 2
                  rw [show win0_2.index t0_3 2 * win0_2.size 2 = 0 from by decide +kernel, show win0_2.xsize (grid0.coords t0_3) 2 = 2 from by decide +kernel]; omega⟩

/-- The host lines after the region, as one function of the output array. -/
def hostTail (s : (⟨S1x1x2, .f32⟩ : BufTy).Contents (Elt F)) : (⟨S_, .f32⟩ : BufTy).Contents (Elt F) :=
  Host.divf (F := F)
    (addf (F := F)
      (Host.divf (F := F) (shapeCast S_ (extractStridedSlice S1x1x1 ![0, 0, 0] s slices_S1x1x2_S1x1x1_0_0_0) shapeCasts_S1x1x1_S_) (constant (F := F) S_ .f32 0x45800000#32))
      (Host.divf (F := F) (shapeCast S_ (extractStridedSlice S1x1x1 ![0, 0, 1] s slices_S1x1x2_S1x1x1_0_0_1) shapeCasts_S1x1x1_S_) (constant (F := F) S_ .f32 0x45800000#32)))
    (constant (F := F) S_ .f32 0x424CCCCD#32)

theorem result_mem : main_v8 ∈ Pipeline.restRefs sig spec0 := by decide

/-- The kernel's run, read: the result at the host tail of the running pair, the arguments unchanged. -/
theorem run_value : θ_run defs (onTc (τ := τ) (main (F := F))) ⟨m, fun _ => 0, ρ⟩ fun r => ∀ c : Dev nD,
      r.2.mem ((c : Thread nD τ).loc main_v8) = hostTail (finalPair m c)
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun _ h c => ⟨((h c).2 main_v8 result_mem).trans ?_,
    ((h c).1 0).trans ((dats m 0 c).arrAt_in 0 rfl _), ((h c).1 1).trans ((dats m 0 c).arrAt_in 1 rfl _)⟩) (run_main m ρ)
  unfold Pipeline.afterTail₀
  show StableHlo.after hostOps1 _ (Proc.devRef .tc main_v8) = _
  after_results
  have e : Pipeline.withArrays (cfgs 0).spec c (V0 m c) (fun w => (dats m 0 c).arrAt w (cfgs 0).N) (Proc.tc.devRef main_v0)
      = finalPair m c :=
    (Pipeline.withArrays_arr spec0 launch0.win.arr_inj c _ _ 2).trans (final_out m c)
  rw [e]
  rfl

end Cert.KernelIdeal.Acc

end
-- ==== Proof.ChamferSpec.lean ====
/-
  The chamfer distance of two batches of point sets, written twice over the extended reals: the way the
  reference computes it and the way the tiled kernel computes it.

  A batch entry is a pair of point sets x, y : 4096 points of 64 coordinates each.

  * Reference.  The squared distance of x's point n and y's point m is |xₙ|² + |yₘ|² − 2·⟨xₙ, yₘ⟩; it is
    clamped at zero and rooted (`clampRoot`); for every n the minimum over m is taken and summed over n
    (`rowMinSum`), for every m the minimum over n is taken and summed over m (`colMinSum`); both are divided
    by 4096 and added; the four batch entries are added, divided by 4 and by the constant `cRef` (12.8 in f32).

  * Kernel.  Each point is extended by four coordinates — x's by (|xₙ|², |xₙ|² − |xₙ|², 1, 1), y's, scaled by
    −2 first, by (1, 1, |yₘ|², |yₘ|² − |yₘ|²) — so that ONE inner product of length 68 is the squared distance
    (`sqDistAug`); the minimum is taken BEFORE clamping and rooting (`rowSumAug`, `colSumAug`); the four batch
    entries' sums are added first, left to right, and divided afterwards by 4096 and by `cKer` (51.2 in f32).

  On finite inputs the two are equal: |v|² − |v|² = 0 and −2 distributes over a finite sum, clamping and
  rooting is monotone so it commutes with a minimum, and 51.2 in f32 is exactly four times 12.8 in f32.
-/
import Idealize.ShloMosaic.PureOps.Ideal
import Idealize.ShloMosaic.PureOps.Ideal.Laws

noncomputable section

namespace Cert.Chamfer

open Idealize.ShloMosaic

/-- A point set: 4096 points of 64 coordinates. -/
abbrev Pts : Type := Fin 4096 → Fin 64 → EReal

/-- The constants as the programs print them. -/
def cZero : EReal := Ideal.ofBits .f32 0x00000000#32
def cTwo : EReal := Ideal.ofBits .f32 0x40000000#32
def cNegTwo : EReal := Ideal.ofBits .f32 0xC0000000#32
def cOne : EReal := Ideal.ofBits .bf16 0x3F80#16
def cInf : EReal := Ideal.ofBits .f32 0x7F800000#32
def cInf16 : EReal := Ideal.ofBits .bf16 0x7F80#16
def cCount : EReal := Ideal.ofBits .f32 0x45800000#32
def cFour : EReal := Ideal.ofBits .f32 0x40800000#32
def cRef : EReal := Ideal.ofBits .f32 0x414CCCCD#32
def cKer : EReal := Ideal.ofBits .f32 0x424CCCCD#32

/-- Clamp at zero, then take the root. -/
def clampRoot (z : EReal) : EReal := Ideal.sqrt (max z cZero)

/-- The squared norm of point n. -/
def sqNorm (x : Pts) (n : Fin 4096) : EReal := ∑ d : Fin 64, x n d * x n d

/-! ## The reference's form -/

/-- |xₙ|² + |yₘ|² − 2·⟨xₙ, yₘ⟩. -/
def sqDist (x y : Pts) (n m : Fin 4096) : EReal :=
  (sqNorm x n + sqNorm y m) - cTwo * ∑ d : Fin 64, x n d * y m d

/-- The sum over x's points of the distance to the nearest point of y. -/
def rowMinSum (x y : Pts) : EReal :=
  ∑ n : Fin 4096, (Finset.univ : Finset (Fin 4096)).fold min cInf (fun m => clampRoot (sqDist x y n m))
/-- The sum over y's points of the distance to the nearest point of x. -/
def colMinSum (x y : Pts) : EReal :=
  ∑ m : Fin 4096, (Finset.univ : Finset (Fin 4096)).fold min cInf (fun n => clampRoot (sqDist x y n m))

/-- One batch entry's chamfer distance: the two means added. -/
def entryRef (x y : Pts) : EReal := Ideal.div (rowMinSum x y) cCount + Ideal.div (colMinSum x y) cCount

/-- The reference's result: the mean over the four entries, divided by the constant. -/
def resultRef (X Y : Fin 4 → Pts) : EReal :=
  Ideal.div (Ideal.div (∑ b : Fin 4, entryRef (X b) (Y b)) cFour) cRef

/-! ## The kernel's form -/

/-- x's point n extended to 68 coordinates: the point, |xₙ|², |xₙ|² − |xₙ|², 1, 1. -/
def augL (x : Pts) (n : Fin 4096) (k : Fin 68) : EReal :=
  if h : k.val < 64 then x n ⟨k.val, h⟩
  else if k.val = 64 then sqNorm x n
  else if k.val = 65 then sqNorm x n - sqNorm x n
  else cOne

/-- y's point m scaled by −2 and extended to 68 coordinates: −2·the point, 1, 1, |yₘ|², |yₘ|² − |yₘ|². -/
def augR (y : Pts) (m : Fin 4096) (k : Fin 68) : EReal :=
  if h : k.val < 64 then cNegTwo * y m ⟨k.val, h⟩
  else if k.val < 66 then cOne
  else if k.val = 66 then sqNorm y m
  else sqNorm y m - sqNorm y m

/-- The inner product of the two extended points. -/
def sqDistAug (x y : Pts) (n m : Fin 4096) : EReal := ∑ k : Fin 68, augL x n k * augR y m k

/-- The minimum first, then clamp and root, summed over x's points. -/
def rowSumAug (x y : Pts) : EReal :=
  ∑ n : Fin 4096, clampRoot ((Finset.univ : Finset (Fin 4096)).fold min cInf16 (fun m => sqDistAug x y n m))
/-- The same over y's points. -/
def colSumAug (x y : Pts) : EReal :=
  ∑ m : Fin 4096, clampRoot ((Finset.univ : Finset (Fin 4096)).fold min cInf16 (fun n => sqDistAug x y n m))

/-- The kernel's result: the four entries' sums added left to right, each total divided by 4096, the two added and
    divided by the constant. -/
def resultKer (X Y : Fin 4 → Pts) : EReal :=
  Ideal.div
    (Ideal.div (((rowSumAug (X 0) (Y 0) + rowSumAug (X 1) (Y 1)) + rowSumAug (X 2) (Y 2)) + rowSumAug (X 3) (Y 3)) cCount
      + Ideal.div (((colSumAug (X 0) (Y 0) + colSumAug (X 1) (Y 1)) + colSumAug (X 2) (Y 2)) + colSumAug (X 3) (Y 3)) cCount)
    cKer

/-- Every coordinate of every point is a real number. -/
def Finite (X : Fin 4 → Pts) : Prop := ∀ b n d, X b n d ≠ ⊤ ∧ X b n d ≠ ⊥

end Cert.Chamfer

end
-- ==== Proof.KernelPoint.lean ====
/-
  One grid point of the idealized kernel, read at an index.

  The body loads a [1,4096,64] block of each argument and views it as 4096 points of 64 coordinates.  It extends
  each point of the first block by its squared norm s, by s − s and by two ones, and each point of the second
  block, scaled by −2, by two ones, its squared norm and the difference of that with itself; one matrix product of the two [4096,68]
  matrices is then the matrix of squared distances.  This module reads the two extended matrices entry by entry.
-/
import proofs.«144906_g68143951118336_cont_9to1c4b_323_22_alg».proof.Proof.Gen.KernelIdeal.Skeleton
import proofs.«144906_g68143951118336_cont_9to1c4b_323_22_alg».proof.Proof.ChamferSpec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Point

open Idealize.ShloMosaic Idealize.ShloMosaic.TcCoe Idealize.ShloMosaic.Tactic
open Idealize.SL Idealize.SL.Sem
open Idealize.ShloMosaic.Pipeline (Dat Cfg Window)
open Idealize.ShloMosaic.ValueIdx Cert.KernelIdeal Cert.KernelIdeal.Gen Cert.Chamfer

/-- A [4096,64] matrix as 4096 points. -/
def rowsOf (w : FVec Ideal S4096x64 .f32) : Pts := fun n d => w (ix2 n d)

/-- The squared norms of the rows, as the body computes them: a lane sum of the squares. -/
def rowSq (w : FVec Ideal S4096x64 .f32) : FVec Ideal S4096 .f32 :=
  multiReduction .add [1] S4096 (mulf w w) 0x00000000#32 reduces_S4096x64_S4096 (.inl rfl) rfl

theorem rowSq_apply (w : FVec Ideal S4096x64 .f32) (n : Fin 4096) : rowSq w (ix1 n) = sqNorm (rowsOf w) n := by
  unfold rowSq sqNorm rowsOf
  refine (Ideal.multiReduction_add_single (mulf w w) 0x00000000#32 reduces_S4096x64_S4096 (.inl rfl) rfl (ix1 n)).trans ?_
  refine Finset.sum_congr rfl fun d _ => ?_
  have e : reduces_S4096x64_S4096.lift (ix1 n) d = ix2 n d :=
    funext fun a => Fin.ext (by match a with | ⟨0, _⟩ => rfl | ⟨1, _⟩ => rfl)
  rw [e]; rfl

/-- The squared norms as a column [4096,1]. -/
def colSq (w : FVec Ideal S4096x64 .f32) : FVec Ideal S4096x1 .f32 := shapeCast S4096x1 (rowSq w) shapeCasts_S4096_S4096x1

theorem colSq_apply (w : FVec Ideal S4096x64 .f32) (n : Fin 4096) (u : Fin 1) : colSq w (ix2 n u) = sqNorm (rowsOf w) n := by
  unfold colSq
  refine (shapeCast_apply (rowSq w) shapeCasts_S4096_S4096x1 (ix2 n u) (ix1 n) ?_).trans (rowSq_apply w n)
  have hu : u.val = 0 := by omega
  rw [Shape.rowMajor_val_one, Shape.rowMajor_val_two]
  show n.val = n.val * 1 + u.val
  omega

/-- The pieces of the first block's extended points: the point, s, s − s, and two ones. -/
abbrev leftPieces (w : FVec Ideal S4096x64 .f32) : List ((s : Shape) × (s.Idx → Ideal .bf16)) :=
  [⟨S4096x64, truncf .bf16 w bitsLt_bf16_f32⟩, ⟨S4096x1, truncf .bf16 (colSq w) bitsLt_bf16_f32⟩,
    ⟨S4096x1, truncf .bf16 (subf (colSq w) (colSq w)) bitsLt_bf16_f32⟩, ⟨S4096x2, broadcast S4096x2 (Scalar.ofBits .bf16 0x3F80#16)⟩]

/-- The first block's points extended: the point, s, s − s, 1, 1. -/
def extLeft (w : FVec Ideal S4096x64 .f32) : FVec Ideal S4096x68 .bf16 :=
  concatenate S4096x68 1 (leftPieces w) concatenates_S4096x64_S4096x1_S4096x1_S4096x2_S4096x68_d1

/-- The pieces of the second block's extended points: −2·the point, two ones, s, s − s. -/
abbrev rightPieces (w : FVec Ideal S4096x64 .f32) : List ((s : Shape) × (s.Idx → Ideal .bf16)) :=
  [⟨S4096x64, truncf .bf16 (mulf (broadcast S4096x64 (Scalar.ofBits .f32 0xC0000000#32)) w) bitsLt_bf16_f32⟩,
    ⟨S4096x2, broadcast S4096x2 (Scalar.ofBits .bf16 0x3F80#16)⟩, ⟨S4096x1, truncf .bf16 (colSq w) bitsLt_bf16_f32⟩,
    ⟨S4096x1, truncf .bf16 (subf (colSq w) (colSq w)) bitsLt_bf16_f32⟩]

/-- The second block's points scaled by −2 and extended: −2·the point, 1, 1, s, s − s. -/
def extRight (w : FVec Ideal S4096x64 .f32) : FVec Ideal S4096x68 .bf16 :=
  concatenate S4096x68 1 (rightPieces w) concatenates_S4096x64_S4096x2_S4096x1_S4096x1_S4096x68_d1

theorem extLeft_apply (w : FVec Ideal S4096x64 .f32) (n : Fin 4096) (k : Fin 68) :
    extLeft w (ix2 n k) = augL (rowsOf w) n k := by
  unfold extLeft augL
  by_cases h0 : k.val < 64
  · rw [dif_pos h0]
    exact concatenate_apply_piece (t := S4096x68) (1 : Fin 2) (leftPieces w) concatenates_S4096x64_S4096x1_S4096x1_S4096x2_S4096x68_d1 (ix2 n k)
      0 (by show 0 < 4; omega) S4096x64 _ rfl rfl 0 rfl (ix2 n ⟨k.val, h0⟩)
      (fun b hb => by match b with | ⟨0, _⟩ => rfl | ⟨1, _⟩ => exact absurd rfl hb) (by show 0 + k.val = k.val; omega)
  · rw [dif_neg h0]
    by_cases h1 : k.val = 64
    · rw [if_pos h1]
      refine (concatenate_apply_piece (t := S4096x68) (1 : Fin 2) (leftPieces w) concatenates_S4096x64_S4096x1_S4096x1_S4096x2_S4096x68_d1 (ix2 n k)
        1 (by show 1 < 4; omega) S4096x1 _ rfl rfl 64 rfl (ix2 n (0 : Fin 1))
        (fun b hb => by match b with | ⟨0, _⟩ => rfl | ⟨1, _⟩ => exact absurd rfl hb) (by show 64 + 0 = k.val; omega)).trans ?_
      exact colSq_apply w n 0
    · rw [if_neg h1]
      by_cases h2 : k.val = 65
      · rw [if_pos h2]
        refine (concatenate_apply_piece (t := S4096x68) (1 : Fin 2) (leftPieces w) concatenates_S4096x64_S4096x1_S4096x1_S4096x2_S4096x68_d1 (ix2 n k)
          2 (by show 2 < 4; omega) S4096x1 _ rfl rfl 65 rfl (ix2 n (0 : Fin 1))
          (fun b hb => by match b with | ⟨0, _⟩ => rfl | ⟨1, _⟩ => exact absurd rfl hb) (by show 65 + 0 = k.val; omega)).trans ?_
        show colSq w (ix2 n 0) - colSq w (ix2 n 0) = _
        rw [colSq_apply w n 0]
      · rw [if_neg h2]
        have hk : k.val < 68 := k.isLt
        exact concatenate_apply_piece (t := S4096x68) (1 : Fin 2) (leftPieces w) concatenates_S4096x64_S4096x1_S4096x1_S4096x2_S4096x68_d1 (ix2 n k)
          3 (by show 3 < 4; omega) S4096x2 _ rfl rfl 66 rfl (ix2 n (⟨k.val - 66, by omega⟩ : Fin 2))
          (fun b hb => by match b with | ⟨0, _⟩ => rfl | ⟨1, _⟩ => exact absurd rfl hb) (by show 66 + (k.val - 66) = k.val; omega)

theorem extRight_apply (w : FVec Ideal S4096x64 .f32) (m : Fin 4096) (k : Fin 68) :
    extRight w (ix2 m k) = augR (rowsOf w) m k := by
  unfold extRight augR
  have hk : k.val < 68 := k.isLt
  by_cases h0 : k.val < 64
  · rw [dif_pos h0]
    exact concatenate_apply_piece (t := S4096x68) (1 : Fin 2) (rightPieces w) concatenates_S4096x64_S4096x2_S4096x1_S4096x1_S4096x68_d1 (ix2 m k)
      0 (by show 0 < 4; omega) S4096x64 _ rfl rfl 0 rfl (ix2 m ⟨k.val, h0⟩)
      (fun b hb => by match b with | ⟨0, _⟩ => rfl | ⟨1, _⟩ => exact absurd rfl hb) (by show 0 + k.val = k.val; omega)
  · rw [dif_neg h0]
    by_cases h1 : k.val < 66
    · rw [if_pos h1]
      exact concatenate_apply_piece (t := S4096x68) (1 : Fin 2) (rightPieces w) concatenates_S4096x64_S4096x2_S4096x1_S4096x1_S4096x68_d1 (ix2 m k)
        1 (by show 1 < 4; omega) S4096x2 _ rfl rfl 64 rfl (ix2 m (⟨k.val - 64, by omega⟩ : Fin 2))
        (fun b hb => by match b with | ⟨0, _⟩ => rfl | ⟨1, _⟩ => exact absurd rfl hb) (by show 64 + (k.val - 64) = k.val; omega)
    · rw [if_neg h1]
      by_cases h2 : k.val = 66
      · rw [if_pos h2]
        refine (concatenate_apply_piece (t := S4096x68) (1 : Fin 2) (rightPieces w) concatenates_S4096x64_S4096x2_S4096x1_S4096x1_S4096x68_d1 (ix2 m k)
          2 (by show 2 < 4; omega) S4096x1 _ rfl rfl 66 rfl (ix2 m (0 : Fin 1))
          (fun b hb => by match b with | ⟨0, _⟩ => rfl | ⟨1, _⟩ => exact absurd rfl hb) (by show 66 + 0 = k.val; omega)).trans ?_
        exact colSq_apply w m 0
      · rw [if_neg h2]
        refine (concatenate_apply_piece (t := S4096x68) (1 : Fin 2) (rightPieces w) concatenates_S4096x64_S4096x2_S4096x1_S4096x1_S4096x68_d1 (ix2 m k)
          3 (by show 3 < 4; omega) S4096x1 _ rfl rfl 67 rfl (ix2 m (0 : Fin 1))
          (fun b hb => by match b with | ⟨0, _⟩ => rfl | ⟨1, _⟩ => exact absurd rfl hb) (by show 67 + 0 = k.val; omega)).trans ?_
        show colSq w (ix2 m 0) - colSq w (ix2 m 0) = _
        rw [colSq_apply w m 0]

end Cert.KernelIdeal.Point

end
-- ==== Proof.KernelDist.lean ====
/-
  One grid point of the idealized kernel: the matrix of squared distances and the point's pair of sums.

  The product of the two extended matrices, read at (n, m), is the inner product of the first block's extended
  point n and the second block's extended point m.  The body takes the minimum of each row and of each column of
  that matrix, clamps at zero, roots, and sums: the pair it adds to the running pair.
-/
import proofs.«144906_g68143951118336_cont_9to1c4b_323_22_alg».proof.Proof.KernelPoint

set_option maxRecDepth 16384

noncomputable section

namespace Cert.KernelIdeal.Point

open Idealize.ShloMosaic Idealize.ShloMosaic.TcCoe Idealize.ShloMosaic.Tactic
open Idealize.SL Idealize.SL.Sem
open Idealize.ShloMosaic.Pipeline (Dat Cfg Window)
open Idealize.ShloMosaic.ValueIdx Cert.KernelIdeal Cert.KernelIdeal.Gen Cert.Chamfer

/-- A [1,4096,64] block as 4096 points. -/
def pts (v : Vec Ideal S1x4096x64 .f32) : Pts := fun n d => v (ix3 (0 : Fin 1) n d)

theorem rowsOf_cast (v : Vec Ideal S1x4096x64 .f32) :
    rowsOf (shapeCast S4096x64 v shapeCasts_S1x4096x64_S4096x64) = pts v := by
  funext n d; exact shapeCast_1ab_ab_apply v _ n d

/-- The distance matrix as the body computes it: one product of the extended matrices (the second operand the
    block loaded first). -/
theorem pay5_eq (v0 v16 : Vec Ideal S1x4096x64 .f32) :
    k0_pay5 v0 v16 = truncf .bf16 (matmul dot_S4096x68_S4096x68_S4096x4096_1_1_0_0_n_n none
      (extLeft (shapeCast S4096x64 v16 shapeCasts_S1x4096x64_S4096x64)) (extRight (shapeCast S4096x64 v0 shapeCasts_S1x4096x64_S4096x64))
      (constant S4096x4096 .f32 0x00000000#32)) bitsLt_bf16_f32 := rfl

theorem lhs_row (i : S4096x4096.Idx) (q : dot_S4096x68_S4096x68_S4096x4096_1_1_0_0_n_n.contr.Idx) : (dot_S4096x68_S4096x68_S4096x4096_1_1_0_0_n_n.lhsIdx i q 0).val = (i 0).val := by
  unfold DotDims.lhsIdx
  rw [dif_neg (show ¬(0 : Fin S4096x68.rank) ∈ dot_S4096x68_S4096x68_S4096x4096_1_1_0_0_n_n.lhsBatch by decide),
    dif_pos (show (0 : Fin S4096x68.rank) ∈ dot_S4096x68_S4096x68_S4096x4096_1_1_0_0_n_n.lhsNonContracting by decide)]
  rfl
theorem lhs_col (i : S4096x4096.Idx) (q : dot_S4096x68_S4096x68_S4096x4096_1_1_0_0_n_n.contr.Idx) : (dot_S4096x68_S4096x68_S4096x4096_1_1_0_0_n_n.lhsIdx i q 1).val = (q ⟨0, by decide⟩).val :=
  dot_S4096x68_S4096x68_S4096x4096_1_1_0_0_n_n.lhsIdx_val_of_single rfl i q
theorem rhs_row (i : S4096x4096.Idx) (q : dot_S4096x68_S4096x68_S4096x4096_1_1_0_0_n_n.contr.Idx) : (dot_S4096x68_S4096x68_S4096x4096_1_1_0_0_n_n.rhsIdx i q 0).val = (i 1).val := by
  unfold DotDims.rhsIdx
  rw [dif_neg (show ¬(0 : Fin S4096x68.rank) ∈ dot_S4096x68_S4096x68_S4096x4096_1_1_0_0_n_n.rhsBatch by decide),
    dif_pos (show (0 : Fin S4096x68.rank) ∈ dot_S4096x68_S4096x68_S4096x4096_1_1_0_0_n_n.rhsNonContracting by decide)]
  rfl
theorem rhs_col (i : S4096x4096.Idx) (q : dot_S4096x68_S4096x68_S4096x4096_1_1_0_0_n_n.contr.Idx) : (dot_S4096x68_S4096x68_S4096x4096_1_1_0_0_n_n.rhsIdx i q 1).val = (q ⟨0, by decide⟩).val :=
  dot_S4096x68_S4096x68_S4096x4096_1_1_0_0_n_n.rhsIdx_val_of_single rfl i q

/-- The matrix at (n, m): the inner product of the two extended points. -/
theorem dist_apply (v0 v16 : Vec Ideal S1x4096x64 .f32) (n m : Fin 4096) :
    k0_pay5 v0 v16 (ix2 n m) = sqDistAug (pts v16) (pts v0) n m := by
  rw [pay5_eq]
  refine (Ideal.matmul_constant_zero_apply dot_S4096x68_S4096x68_S4096x4096_1_1_0_0_n_n none _ _ (ix2 n m)).trans ?_
  rw [← Equiv.sum_comp (contrEquiv1 dot_S4096x68_S4096x68_S4096x4096_1_1_0_0_n_n 68 rfl rfl).symm]
  unfold sqDistAug
  refine Finset.sum_congr rfl fun k _ => ?_
  have hk := contrEquiv1_symm_val dot_S4096x68_S4096x68_S4096x4096_1_1_0_0_n_n 68 rfl rfl k
  have el : dot_S4096x68_S4096x68_S4096x4096_1_1_0_0_n_n.lhsIdx (ix2 n m) ((contrEquiv1 dot_S4096x68_S4096x68_S4096x4096_1_1_0_0_n_n 68 rfl rfl).symm k) = ix2 n k := funext fun a => Fin.ext (by
    match a with
    | ⟨0, _⟩ => exact lhs_row _ _
    | ⟨1, _⟩ => exact (lhs_col _ _).trans hk)
  have er : dot_S4096x68_S4096x68_S4096x4096_1_1_0_0_n_n.rhsIdx (ix2 n m) ((contrEquiv1 dot_S4096x68_S4096x68_S4096x4096_1_1_0_0_n_n 68 rfl rfl).symm k) = ix2 m k := funext fun a => Fin.ext (by
    match a with
    | ⟨0, _⟩ => exact rhs_row _ _
    | ⟨1, _⟩ => exact (rhs_col _ _).trans hk)
  rw [el, er, extLeft_apply, extRight_apply, rowsOf_cast, rowsOf_cast]

end Cert.KernelIdeal.Point

end
-- ==== Proof.KernelMin.lean ====
/-
  The minimum of each row and of each column of a [4096,4096] matrix, as the body takes them: a fold of min from +∞
  over the 4096 entries of the row or column.
-/
import proofs.«144906_g68143951118336_cont_9to1c4b_323_22_alg».proof.Proof.KernelDist

set_option maxRecDepth 16384

noncomputable section

namespace Cert.KernelIdeal.Point

open Idealize.ShloMosaic Idealize.ShloMosaic.TcCoe Idealize.ShloMosaic.Tactic
open Idealize.SL Idealize.SL.Sem
open Idealize.ShloMosaic.Pipeline (Dat Cfg Window)
open Idealize.ShloMosaic.ValueIdx Cert.KernelIdeal Cert.KernelIdeal.Gen Cert.Chamfer

/-- The minimum of row n of a [4096,4096] matrix. -/
theorem rowMin_apply (D : FVec Ideal S4096x4096 .bf16) (n : Fin 4096) :
    multiReduction .minimumf [1] S4096 D 0x7F80#16 reduces_S4096x4096_S4096 (.inr rfl) rfl (ix1 n)
      = (Finset.univ : Finset (Fin 4096)).fold min cInf16 (fun m => D (ix2 n m)) := by
  refine (multiReduction_minimumf_eq_fold D 0x7F80#16 reduces_S4096x4096_S4096 (.inr rfl) rfl (ix1 n)).trans ?_
  refine (reduces_S4096x4096_S4096.fold_filter_drop_single FloatOps.minimumf (FloatOps.ofBits .bf16 0x7F80#16) D (ix1 n)).trans ?_
  refine Finset.fold_congr fun (m : Fin 4096) _ => ?_
  exact congrArg D (funext fun a => Fin.ext (by match a with | ⟨0, _⟩ => rfl | ⟨1, _⟩ => rfl))

/-- The minimum of column m of a [4096,4096] matrix. -/
theorem colMin_apply (D : FVec Ideal S4096x4096 .bf16) (m : Fin 4096) :
    multiReduction .minimumf [0] S4096 D 0x7F80#16 reduces_S4096x4096_S4096_2 (.inr rfl) rfl (ix1 m)
      = (Finset.univ : Finset (Fin 4096)).fold min cInf16 (fun n => D (ix2 n m)) := by
  refine (multiReduction_minimumf_eq_fold D 0x7F80#16 reduces_S4096x4096_S4096_2 (.inr rfl) rfl (ix1 m)).trans ?_
  refine (reduces_S4096x4096_S4096_2.fold_filter_drop_single FloatOps.minimumf (FloatOps.ofBits .bf16 0x7F80#16) D (ix1 m)).trans ?_
  refine Finset.fold_congr fun (n : Fin 4096) _ => ?_
  exact congrArg D (funext fun a => Fin.ext (by match a with | ⟨0, _⟩ => rfl | ⟨1, _⟩ => rfl))

end Cert.KernelIdeal.Point

end
-- ==== Proof.KernelTotals.lean ====
/-
  4096 minima clamped at zero, rooted and summed, in the two layouts the body uses: as a column [4096,1] viewed
  [1,4096,1] and reduced over its last two axes, and as a row [1,4096] reduced over its last axis.  Either way the
  result is the sum over the 4096 entries.
-/
import proofs.«144906_g68143951118336_cont_9to1c4b_323_22_alg».proof.Proof.KernelDist

set_option maxRecDepth 16384

noncomputable section

namespace Cert.KernelIdeal.Point

open Idealize.ShloMosaic Idealize.ShloMosaic.TcCoe Idealize.ShloMosaic.Tactic
open Idealize.SL Idealize.SL.Sem
open Idealize.ShloMosaic.Pipeline (Dat Cfg Window)
open Idealize.ShloMosaic.ValueIdx Cert.KernelIdeal Cert.KernelIdeal.Gen Cert.Chamfer

/-- A vector of 4096 minima clamped, rooted and summed, the way the body sums the row minima: as a column
    [4096,1] viewed [1,4096,1] and reduced over its last two axes. -/
def rowTotal (r : FVec Ideal S4096 .bf16) : Ideal .f32 :=
  extractAt ![0, 0, 0] (shapeCast S1x1x1 (multiReduction .add [1, 2] S1
    (shapeCast S1x4096x1 (sqrt (maximumf (extf .f32 (shapeCast S4096x1 r shapeCasts_S4096_S4096x1) bitsLt_bf16_f32)
      (broadcast S4096x1 (Scalar.ofBits .f32 0x00000000#32)))) shapeCasts_S4096x1_S1x4096x1)
    0x00000000#32 reduces_S1x4096x1_S1 (.inl rfl) rfl) shapeCasts_S1_S1x1x1) inpos_S1x1x1_p0_0_0

/-- The same the way the body sums the column minima: as a row [1,4096] reduced over its last axis. -/
def colTotal (r : FVec Ideal S4096 .bf16) : Ideal .f32 :=
  extractAt ![0, 0] (shapeCast S1x1 (multiReduction .add [1] S1
    (shapeCast S1x4096 (sqrt (maximumf (extf .f32 r bitsLt_bf16_f32) (broadcast S4096 (Scalar.ofBits .f32 0x00000000#32))))
      shapeCasts_S4096_S1x4096)
    0x00000000#32 reduces_S1x4096_S1 (.inl rfl) rfl) shapeCasts_S1_S1x1) inpos_S1x1_p0_0

/-- The indices of a [1,4096,1] array are its 4096 middle coordinates. -/
def midEquiv : S1x4096x1.Idx ≃ Fin 4096 where
  toFun i := i 1
  invFun n := ix3 (0 : Fin 1) n (0 : Fin 1)
  left_inv i := funext fun a => Fin.ext (by
    match a with
    | ⟨0, _⟩ => have h : (i 0).val < 1 := (i 0).isLt; show 0 = (i 0).val; omega
    | ⟨1, _⟩ => rfl
    | ⟨2, _⟩ => have h : (i 2).val < 1 := (i 2).isLt; show 0 = (i 2).val; omega)
  right_inv _ := rfl

theorem rowTotal_eq (r : FVec Ideal S4096 .bf16) : rowTotal r = ∑ n : Fin 4096, clampRoot (r (ix1 n)) := by
  unfold rowTotal extractAt
  refine (shapeCast_apply _ shapeCasts_S1_S1x1x1 _ (ix1 (0 : Fin 1)) (by rfl)).trans ?_
  refine (Ideal.multiReduction_add_total _ 0x00000000#32 reduces_S1x4096x1_S1 (fun b => by match b with | ⟨0, _⟩ => rfl)
    (.inl rfl) rfl (ix1 (0 : Fin 1))).trans ?_
  refine Fintype.sum_equiv midEquiv _ _ fun i => ?_
  obtain ⟨n, rfl⟩ : ∃ n : Fin 4096, i = ix3 (0 : Fin 1) n (0 : Fin 1) := ⟨midEquiv i, (midEquiv.left_inv i).symm⟩
  refine (shapeCast_ab_1ab_apply _ shapeCasts_S4096x1_S1x4096x1 (0 : Fin 1) n (0 : Fin 1)).trans ?_
  show Ideal.sqrt (max (shapeCast S4096x1 r shapeCasts_S4096_S4096x1 (ix2 n (0 : Fin 1))) (Ideal.ofBits .f32 0x00000000#32)) = _
  have e : shapeCast S4096x1 r shapeCasts_S4096_S4096x1 (ix2 n (0 : Fin 1)) = r (ix1 n) :=
    shapeCast_apply r shapeCasts_S4096_S4096x1 (ix2 n (0 : Fin 1)) (ix1 n) (by
      rw [Shape.rowMajor_val_one, Shape.rowMajor_val_two]; show n.val = n.val * 1 + 0; omega)
  rw [e]; rfl

theorem colTotal_eq (r : FVec Ideal S4096 .bf16) : colTotal r = ∑ m : Fin 4096, clampRoot (r (ix1 m)) := by
  unfold colTotal extractAt
  refine (shapeCast_apply _ shapeCasts_S1_S1x1 _ (ix1 (0 : Fin 1)) (by rfl)).trans ?_
  refine (Ideal.multiReduction_add_single _ 0x00000000#32 reduces_S1x4096_S1 (.inl rfl) rfl (ix1 (0 : Fin 1))).trans ?_
  refine Finset.sum_congr rfl fun (m : Fin 4096) _ => ?_
  have e : reduces_S1x4096_S1.lift (ix1 (0 : Fin 1)) m = ix2 (0 : Fin 1) m :=
    funext fun a => Fin.ext (by match a with | ⟨0, _⟩ => rfl | ⟨1, _⟩ => rfl)
  rw [e]
  refine (shapeCast_a_1a_apply _ shapeCasts_S4096_S1x4096 (0 : Fin 1) m).trans ?_
  rfl

end Cert.KernelIdeal.Point

end
-- ==== Proof.KernelSums.lean ====
/-
  One grid point of the idealized kernel: the pair of sums it adds to the running pair — the sum over the rows of
  the distance matrix of each row's clamped, rooted minimum, beside the same over the columns.
-/
import proofs.«144906_g68143951118336_cont_9to1c4b_323_22_alg».proof.Proof.KernelMin
import proofs.«144906_g68143951118336_cont_9to1c4b_323_22_alg».proof.Proof.KernelTotals

set_option maxRecDepth 16384

noncomputable section

namespace Cert.KernelIdeal.Point

open Idealize.ShloMosaic Idealize.ShloMosaic.TcCoe Idealize.ShloMosaic.Tactic
open Idealize.SL Idealize.SL.Sem
open Idealize.ShloMosaic.Pipeline (Dat Cfg Window)
open Idealize.ShloMosaic.ValueIdx Cert.KernelIdeal Cert.KernelIdeal.Gen Cert.Chamfer

/-- The point's pair: the row total beside the column total. -/
theorem pay6_eq (v0 v16 : Vec Ideal S1x4096x64 .f32) :
    k0_pay6 v0 v16 = broadcast S1x1 (rowTotal (multiReduction .minimumf [1] S4096 (k0_pay5 v0 v16) 0x7F80#16 reduces_S4096x4096_S4096 (.inr rfl) rfl)) := rfl
theorem pay1_eq (v41 : FVec Ideal S1x1 .f32) (v42 : FVec Ideal S4096 .bf16) :
    k0_pay1 v41 v42 = concatenate S1x2 1 [⟨S1x1, v41⟩, ⟨S1x1, broadcast S1x1 (colTotal v42)⟩] concatenates_S1x1_S1x1_S1x2_d1 := rfl

/-- Two [1,1] arrays side by side: entry 0 is the first's, entry 1 the second's. -/
theorem beside_left (p q : FVec Ideal S1x1 .f32) :
    concatenate S1x2 1 [⟨S1x1, p⟩, ⟨S1x1, q⟩] concatenates_S1x1_S1x1_S1x2_d1 (ix2 (0 : Fin 1) (0 : Fin 2)) = p (ix2 (0 : Fin 1) (0 : Fin 1)) :=
  concatenate_pair_apply_left (t := S1x2) (1 : Fin 2) p q concatenates_S1x1_S1x1_S1x2_d1 (ix2 (0 : Fin 1) (0 : Fin 2)) rfl
    (ix2 (0 : Fin 1) (0 : Fin 1)) (fun b => by match b with | ⟨0, _⟩ => rfl | ⟨1, _⟩ => rfl)
theorem beside_right (p q : FVec Ideal S1x1 .f32) :
    concatenate S1x2 1 [⟨S1x1, p⟩, ⟨S1x1, q⟩] concatenates_S1x1_S1x1_S1x2_d1 (ix2 (0 : Fin 1) (1 : Fin 2)) = q (ix2 (0 : Fin 1) (0 : Fin 1)) :=
  concatenate_pair_apply_right (t := S1x2) (1 : Fin 2) p q concatenates_S1x1_S1x1_S1x2_d1 (ix2 (0 : Fin 1) (1 : Fin 2)) rfl rfl
    (ix2 (0 : Fin 1) (0 : Fin 1)) (fun b hb => by match b with | ⟨0, _⟩ => rfl | ⟨1, _⟩ => exact absurd rfl hb) (by rfl)

/-- The row total of the row minima of a matrix. -/
theorem rowTotal_min (D : FVec Ideal S4096x4096 .bf16) :
    rowTotal (multiReduction .minimumf [1] S4096 D 0x7F80#16 reduces_S4096x4096_S4096 (.inr rfl) rfl)
      = ∑ n : Fin 4096, clampRoot ((Finset.univ : Finset (Fin 4096)).fold min cInf16 (fun m => D (ix2 n m))) :=
  (rowTotal_eq _).trans (Finset.sum_congr rfl fun n _ => congrArg clampRoot (rowMin_apply D n))
/-- The column total of the column minima of a matrix. -/
theorem colTotal_min (D : FVec Ideal S4096x4096 .bf16) :
    colTotal (multiReduction .minimumf [0] S4096 D 0x7F80#16 reduces_S4096x4096_S4096_2 (.inr rfl) rfl)
      = ∑ m : Fin 4096, clampRoot ((Finset.univ : Finset (Fin 4096)).fold min cInf16 (fun n => D (ix2 n m))) :=
  (colTotal_eq _).trans (Finset.sum_congr rfl fun m _ => congrArg clampRoot (colMin_apply D m))

/-- What one point contributes: from the first argument's block `xa` and the second's `xb`. -/
def pointPair (xa xb : Vec Ideal S1x4096x64 .f32) : FVec Ideal S1x2 .f32 := k0_pay1 (k0_pay6 xb xa) (k0_pay7 xb xa)

theorem pointPair_row (xa xb : Vec Ideal S1x4096x64 .f32) :
    pointPair xa xb (ix2 (0 : Fin 1) (0 : Fin 2)) = rowSumAug (pts xa) (pts xb) := by
  have h1 : pointPair xa xb (ix2 (0 : Fin 1) (0 : Fin 2)) = k0_pay6 xb xa (ix2 (0 : Fin 1) (0 : Fin 1)) :=
    (congrFun (pay1_eq (k0_pay6 xb xa) (k0_pay7 xb xa)) (ix2 (0 : Fin 1) (0 : Fin 2))).trans
      (beside_left (k0_pay6 xb xa) (broadcast S1x1 (colTotal (k0_pay7 xb xa))))
  have h2 : k0_pay6 xb xa (ix2 (0 : Fin 1) (0 : Fin 1))
      = rowTotal (multiReduction .minimumf [1] S4096 (k0_pay5 xb xa) 0x7F80#16 reduces_S4096x4096_S4096 (.inr rfl) rfl) :=
    (congrFun (pay6_eq xb xa) (ix2 (0 : Fin 1) (0 : Fin 1))).trans (broadcast_apply _ _)
  refine h1.trans (h2.trans ((rowTotal_min (k0_pay5 xb xa)).trans ?_))
  exact Finset.sum_congr rfl fun n _ => congrArg clampRoot (Finset.fold_congr fun m _ => dist_apply xb xa n m)

theorem pointPair_col (xa xb : Vec Ideal S1x4096x64 .f32) :
    pointPair xa xb (ix2 (0 : Fin 1) (1 : Fin 2)) = colSumAug (pts xa) (pts xb) := by
  have h1 : pointPair xa xb (ix2 (0 : Fin 1) (1 : Fin 2)) = colTotal (k0_pay7 xb xa) :=
    (congrFun (pay1_eq (k0_pay6 xb xa) (k0_pay7 xb xa)) (ix2 (0 : Fin 1) (1 : Fin 2))).trans
      ((beside_right (k0_pay6 xb xa) (broadcast S1x1 (colTotal (k0_pay7 xb xa)))).trans (broadcast_apply _ _))
  have h2 : colTotal (k0_pay7 xb xa)
      = colTotal (multiReduction .minimumf [0] S4096 (k0_pay5 xb xa) 0x7F80#16 reduces_S4096x4096_S4096_2 (.inr rfl) rfl) := rfl
  refine h1.trans (h2.trans ((colTotal_min (k0_pay5 xb xa)).trans ?_))
  exact Finset.sum_congr rfl fun m _ => congrArg clampRoot (Finset.fold_congr fun n _ => dist_apply xb xa n m)

end Cert.KernelIdeal.Point

end
-- ==== Proof.KernelValue.lean ====
/-
  The idealized kernel's result is the kernel's form of the chamfer distance (`Cert.Chamfer.resultKer`) of the two
  argument arrays, batch entry b of an array [4,4096,64] being the point set n, d ↦ the array at (b, n, d).

  Grid point t reads batch entry t of each argument (the block index is (t, 0, 0)); the running pair after the
  last point is the four points' pairs added left to right; the host lines divide its two entries by 4096, add
  them and divide by the constant.
-/
import proofs.«144906_g68143951118336_cont_9to1c4b_323_22_alg».proof.Proof.KernelTail
import proofs.«144906_g68143951118336_cont_9to1c4b_323_22_alg».proof.Proof.KernelSums

set_option maxRecDepth 16384

noncomputable section

namespace Cert.KernelIdeal.Acc

open Idealize.ShloMosaic Idealize.ShloMosaic.TcCoe Idealize.ShloMosaic.Tactic
open Idealize.SL Idealize.SL.Sem
open Idealize.ShloMosaic.Pipeline (Dat Cfg Window)
open Idealize.ShloMosaic.ValueIdx Cert.KernelIdeal Cert.KernelIdeal.Gen Cert.Chamfer

variable (m : (ℓ : Loc nD τ sig) → Buf (Elt Ideal) ℓ) (ρ : Dev nD → PrngReg)

/-- Batch entry b of an argument array, as a point set. -/
def argPts (a : S4x4096x64.Idx → EReal) (b : Fin 4) : Pts := fun n d => a (ix3 b n d)

theorem grid_lt (t : Fin cfg0.N) : t.val < 4 := lt_of_lt_of_eq t.isLt (show cfg0.N = 4 from N_0)

/-- Where the input blocks sit: block (t, 0, 0) of either argument. -/
theorem block_index : ∀ t : Fin cfg0.N, (win0_0.index t 0 = t.val ∧ win0_0.index t 1 = 0 ∧ win0_0.index t 2 = 0)
    ∧ (win0_1.index t 0 = t.val ∧ win0_1.index t 1 = 0 ∧ win0_1.index t 2 = 0) :=
  (by decide +kernel : ∀ t : Fin grid0.N, (win0_0.index t 0 = t.val ∧ win0_0.index t 1 = 0 ∧ win0_0.index t 2 = 0)
    ∧ (win0_1.index t 0 = t.val ∧ win0_1.index t 1 = 0 ∧ win0_1.index t 2 = 0))

/-- The first argument's block at point t is its batch entry t. -/
theorem pts_block0 (c : Dev nD) (t : Fin cfg0.N) :
    Point.pts (iblk m c 0 t) = argPts (m ((c : Thread nD τ).loc main_arg0)) ⟨t.val, grid_lt t⟩ := by
  obtain ⟨⟨e0, e1, e2⟩, -⟩ := block_index t
  funext n d
  unfold Point.pts argPts iblk
  rw [View.read_apply]
  show V m c main_arg0 _ = m (c.tc.loc main_arg0) _
  rw [V_main_arg0]
  congr 1
  funext a
  apply Fin.ext
  match a with
  | ⟨0, _⟩ => show win0_0.index t 0 * 1 + 1 * 0 = t.val; rw [e0]; omega
  | ⟨1, _⟩ => show win0_0.index t 1 * 4096 + 1 * n.val = n.val; rw [e1]; omega
  | ⟨2, _⟩ => show win0_0.index t 2 * 64 + 1 * d.val = d.val; rw [e2]; omega

/-- The second argument's block at point t is its batch entry t. -/
theorem pts_block1 (c : Dev nD) (t : Fin cfg0.N) :
    Point.pts (iblk m c 1 t) = argPts (m ((c : Thread nD τ).loc main_arg1)) ⟨t.val, grid_lt t⟩ := by
  obtain ⟨-, ⟨e0, e1, e2⟩⟩ := block_index t
  funext n d
  unfold Point.pts argPts iblk
  rw [View.read_apply]
  show V m c main_arg1 _ = m (c.tc.loc main_arg1) _
  rw [V_main_arg1]
  congr 1
  funext a
  apply Fin.ext
  match a with
  | ⟨0, _⟩ => show win0_1.index t 0 * 1 + 1 * 0 = t.val; rw [e0]; omega
  | ⟨1, _⟩ => show win0_1.index t 1 * 4096 + 1 * n.val = n.val; rw [e1]; omega
  | ⟨2, _⟩ => show win0_1.index t 2 * 64 + 1 * d.val = d.val; rw [e2]; omega

/-- The first point stores its pair. -/
theorem storedFirst_apply (xa xb : Vec Ideal S1x4096x64 .f32) (j : Fin 2) :
    storedFirst xa xb (ix3 (0 : Fin 1) (0 : Fin 1) j) = Point.pointPair xa xb (ix2 (0 : Fin 1) j) := by
  show shapeCast S1x1x2 (Point.pointPair xa xb) shapeCasts_S1x2_S1x1x2 (ix3 (0 : Fin 1) (0 : Fin 1) j) = _
  exact shapeCast_ab_1ab_apply _ _ (0 : Fin 1) (0 : Fin 1) j

/-- A later point stores what it found plus its pair. -/
theorem storedLater_apply (xa xb : Vec Ideal S1x4096x64 .f32) (prev : Vec Ideal S1x1x2 .f32) (j : Fin 2) :
    storedLater xa xb prev (ix3 (0 : Fin 1) (0 : Fin 1) j)
      = prev (ix3 (0 : Fin 1) (0 : Fin 1) j) + Point.pointPair xa xb (ix2 (0 : Fin 1) j) := by
  show shapeCast S1x1x2 (addf (shapeCast S1x2 prev shapeCasts_S1x1x2_S1x2) (Point.pointPair xa xb)) shapeCasts_S1x2_S1x1x2
    (ix3 (0 : Fin 1) (0 : Fin 1) j) = _
  refine (shapeCast_ab_1ab_apply _ _ (0 : Fin 1) (0 : Fin 1) j).trans ?_
  show shapeCast S1x2 prev shapeCasts_S1x1x2_S1x2 (ix2 (0 : Fin 1) j) + _ = _
  rw [shapeCast_1ab_ab_apply prev shapeCasts_S1x1x2_S1x2 (0 : Fin 1) j]

/-- Point t's pair in terms of the argument arrays. -/
theorem point_row (c : Dev nD) (t : Fin cfg0.N) :
    Point.pointPair (iblk m c 0 t) (iblk m c 1 t) (ix2 (0 : Fin 1) (0 : Fin 2))
      = rowSumAug (argPts (m ((c : Thread nD τ).loc main_arg0)) ⟨t.val, grid_lt t⟩) (argPts (m ((c : Thread nD τ).loc main_arg1)) ⟨t.val, grid_lt t⟩) := by
  rw [Point.pointPair_row, pts_block0, pts_block1]
theorem point_col (c : Dev nD) (t : Fin cfg0.N) :
    Point.pointPair (iblk m c 0 t) (iblk m c 1 t) (ix2 (0 : Fin 1) (1 : Fin 2))
      = colSumAug (argPts (m ((c : Thread nD τ).loc main_arg0)) ⟨t.val, grid_lt t⟩) (argPts (m ((c : Thread nD τ).loc main_arg1)) ⟨t.val, grid_lt t⟩) := by
  rw [Point.pointPair_col, pts_block0, pts_block1]

/-- The running pair after the last point: the four points' pairs added left to right. -/
theorem finalPair_apply (c : Dev nD) (j : Fin 2) :
    finalPair m c (ix3 (0 : Fin 1) (0 : Fin 1) j)
      = ((Point.pointPair (iblk m c 0 t0_0) (iblk m c 1 t0_0) (ix2 (0 : Fin 1) j)
          + Point.pointPair (iblk m c 0 t0_1) (iblk m c 1 t0_1) (ix2 (0 : Fin 1) j))
          + Point.pointPair (iblk m c 0 t0_2) (iblk m c 1 t0_2) (ix2 (0 : Fin 1) j))
          + Point.pointPair (iblk m c 0 t0_3) (iblk m c 1 t0_3) (ix2 (0 : Fin 1) j) := by
  show storedLater (iblk m c 0 t0_3) (iblk m c 1 t0_3) (storedLater (iblk m c 0 t0_2) (iblk m c 1 t0_2)
    (storedLater (iblk m c 0 t0_1) (iblk m c 1 t0_1) (storedFirst (iblk m c 0 t0_0) (iblk m c 1 t0_0)))) (ix3 (0 : Fin 1) (0 : Fin 1) j) = _
  rw [storedLater_apply, storedLater_apply, storedLater_apply, storedFirst_apply]

/-- The host lines at the output array's two entries. -/
theorem hostTail_apply (s : (⟨S1x1x2, .f32⟩ : BufTy).Contents (Elt Ideal)) (i : S_.Idx) :
    hostTail (F := Ideal) s i
      = Ideal.div (Ideal.div (s (ix3 (0 : Fin 1) (0 : Fin 1) (0 : Fin 2))) cCount + Ideal.div (s (ix3 (0 : Fin 1) (0 : Fin 1) (1 : Fin 2))) cCount) cKer := by
  have e0 : shapeCast S_ (extractStridedSlice S1x1x1 ![0, 0, 0] s slices_S1x1x2_S1x1x1_0_0_0) shapeCasts_S1x1x1_S_ i
      = s (ix3 (0 : Fin 1) (0 : Fin 1) (0 : Fin 2)) :=
    (shapeCast_apply _ shapeCasts_S1x1x1_S_ i (ix3 (0 : Fin 1) (0 : Fin 1) (0 : Fin 1)) (by rfl)).trans
      (extractStridedSlice_apply _ s slices_S1x1x2_S1x1x1_0_0_0 _ (ix3 (0 : Fin 1) (0 : Fin 1) (0 : Fin 2))
        (fun a => by match a with | ⟨0, _⟩ => rfl | ⟨1, _⟩ => rfl | ⟨2, _⟩ => rfl))
  have e1 : shapeCast S_ (extractStridedSlice S1x1x1 ![0, 0, 1] s slices_S1x1x2_S1x1x1_0_0_1) shapeCasts_S1x1x1_S_ i
      = s (ix3 (0 : Fin 1) (0 : Fin 1) (1 : Fin 2)) :=
    (shapeCast_apply _ shapeCasts_S1x1x1_S_ i (ix3 (0 : Fin 1) (0 : Fin 1) (0 : Fin 1)) (by rfl)).trans
      (extractStridedSlice_apply _ s slices_S1x1x2_S1x1x1_0_0_1 _ (ix3 (0 : Fin 1) (0 : Fin 1) (1 : Fin 2))
        (fun a => by match a with | ⟨0, _⟩ => rfl | ⟨1, _⟩ => rfl | ⟨2, _⟩ => rfl))
  show Ideal.div (Ideal.div (shapeCast S_ (extractStridedSlice S1x1x1 ![0, 0, 0] s slices_S1x1x2_S1x1x1_0_0_0) shapeCasts_S1x1x1_S_ i) cCount
    + Ideal.div (shapeCast S_ (extractStridedSlice S1x1x1 ![0, 0, 1] s slices_S1x1x2_S1x1x1_0_0_1) shapeCasts_S1x1x1_S_ i) cCount) cKer = _
  rw [e0, e1]

/-- The kernel's result in terms of the argument arrays. -/
theorem result_eq (c : Dev nD) :
    hostTail (F := Ideal) (finalPair m c)
      = fun _ => resultKer (argPts (m ((c : Thread nD τ).loc main_arg0))) (argPts (m ((c : Thread nD τ).loc main_arg1))) := by
  funext i
  rw [hostTail_apply, finalPair_apply, finalPair_apply, point_row, point_row, point_row, point_row,
    point_col, point_col, point_col, point_col]
  rfl

/-- The kernel's run, read: its result is the kernel's form of the chamfer distance of the argument arrays. -/
theorem run_result : θ_run defs (onTc (τ := τ) (main (F := Ideal))) ⟨m, fun _ => 0, ρ⟩ fun r => ∀ c : Dev nD,
      r.2.mem ((c : Thread nD τ).loc main_v8)
        = (fun _ => resultKer (argPts (m ((c : Thread nD τ).loc main_arg0))) (argPts (m ((c : Thread nD τ).loc main_arg1))))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (result_eq m c), (h c).2⟩) (run_value m ρ)

end Cert.KernelIdeal.Acc

end
-- ==== Proof.RefSide.lean ====
/-
  The idealized reference, read at an index: its result is the reference's form of the chamfer distance
  (`Cert.Chamfer.resultRef`) of the two argument arrays, batch entry b of an array [4,4096,64] being the point set
  n, d ↦ the array at (b, n, d).

  The program computes, for all (b, n, m) at once, |xₙ|² broadcast along m plus |yₘ|² broadcast along n minus twice
  the batched inner products, clamps at zero and roots; reduces by minimum along m and along n; sums each over its
  remaining axis and divides by 4096; adds the two; sums over b, divides by 4 and by the constant.
-/
import proofs.«144906_g68143951118336_cont_9to1c4b_323_22_alg».proof.Proof.Gen.ReferenceIdeal.Read
import proofs.«144906_g68143951118336_cont_9to1c4b_323_22_alg».proof.Proof.ChamferSpec
import Idealize.ShloMosaic.Lib.ValueIdx
import Idealize.ShloMosaic.PureOps.Ideal.Laws

set_option maxRecDepth 16384

noncomputable section

namespace Cert.ReferenceIdeal.RefValue

open Idealize.ShloMosaic Idealize.ShloMosaic.TcCoe Idealize.ShloMosaic.Tactic
open Idealize.SL Idealize.SL.Sem
open Idealize.ShloMosaic.Pipeline (Dat Cfg Window)
open Idealize.ShloMosaic.ValueIdx Cert.ReferenceIdeal Cert.ReferenceIdeal.Gen Cert.ReferenceIdeal.Read Cert.Chamfer

/-- An argument array [4,4096,64]. -/
abbrev Arg : Type := (⟨S4x4096x64, .f32⟩ : BufTy).Contents (Elt Ideal)

/-- Batch entry b of an argument array, as a point set. -/
def batchPts (x : Arg) (b : Fin 4) : Pts := fun n d => x (ix3 b n d)

/-- The squared norms of the first argument's points. -/
theorem sqNorm_left (x0 : Arg) (b : Fin 4) (n : Fin 4096) : val_main_v1 (F := Ideal) x0 (ix2 b n) = sqNorm (batchPts x0 b) n := by
  rw [val_main_v1_apply]
  show Ideal.ofBits .f32 0x00000000#32 + _ = _
  rw [Ideal.ofBits_zero_f32, zero_add]
  unfold sqNorm batchPts
  refine Finset.sum_congr rfl fun d _ => ?_
  have e : idx_main_v1 (ix2 b n) d = ix3 b n d := funext fun a => Fin.ext (by
    match a with | ⟨0, _⟩ => rfl | ⟨1, _⟩ => rfl | ⟨2, _⟩ => rfl)
  rw [val_main_v0_apply, e]; rfl

/-- The squared norms of the second argument's points. -/
theorem sqNorm_right (x1 : Arg) (b : Fin 4) (n : Fin 4096) : val_main_v4 (F := Ideal) x1 (ix2 b n) = sqNorm (batchPts x1 b) n := by
  rw [val_main_v4_apply]
  show Ideal.ofBits .f32 0x00000000#32 + _ = _
  rw [Ideal.ofBits_zero_f32, zero_add]
  unfold sqNorm batchPts
  refine Finset.sum_congr rfl fun d _ => ?_
  have e : idx_main_v4 (ix2 b n) d = ix3 b n d := funext fun a => Fin.ext (by
    match a with | ⟨0, _⟩ => rfl | ⟨1, _⟩ => rfl | ⟨2, _⟩ => rfl)
  rw [val_main_v3_apply, e]; rfl

/-- The clamped and rooted squared distance at (b, n, m). -/
theorem dist_apply (x0 x1 : Arg) (b : Fin 4) (n m : Fin 4096) :
    val_main_v15 (F := Ideal) x0 x1 (ix3 b n m) = clampRoot (sqDist (batchPts x0 b) (batchPts x1 b) n m) := by
  have e7 : idx_main_v2 (idx_main_v7 (ix3 b n m)) = ix2 b n := funext fun a => Fin.ext (by
    match a with | ⟨0, _⟩ => rfl | ⟨1, _⟩ => rfl)
  have e8 : idx_main_v5 (idx_main_v8 (ix3 b n m)) = ix2 b m := funext fun a => Fin.ext (by
    match a with | ⟨0, _⟩ => rfl | ⟨1, _⟩ => rfl)
  have el : ∀ k : Fin 64, lidx_main_v6 (ix3 b n m) k = ix3 b n k := fun k => funext fun a => Fin.ext (by
    match a with | ⟨0, _⟩ => rfl | ⟨1, _⟩ => rfl | ⟨2, _⟩ => rfl)
  have er : ∀ k : Fin 64, ridx_main_v6 (ix3 b n m) k = ix3 b m k := fun k => funext fun a => Fin.ext (by
    match a with | ⟨0, _⟩ => rfl | ⟨1, _⟩ => rfl | ⟨2, _⟩ => rfl)
  rw [val_main_v15_apply, val_main_v14_apply, val_main_v13_apply, val_main_cst_2_apply, val_main_v12_apply, val_main_v9_apply,
    val_main_v7_apply, val_main_v2_apply, e7, sqNorm_left, val_main_v8_apply, val_main_v5_apply, e8, sqNorm_right,
    val_main_v11_apply, val_main_v10_apply, val_main_cst_1_apply, val_main_v6_apply]
  simp only [el, er]
  rfl

/-- For every point of the first set, the distance to the nearest point of the second. -/
theorem rowMin_apply (x0 x1 : Arg) (b : Fin 4) (n : Fin 4096) :
    val_main_v16 (F := Ideal) x0 x1 (ix2 b n)
      = (Finset.univ : Finset (Fin 4096)).fold min cInf (fun m => clampRoot (sqDist (batchPts x0 b) (batchPts x1 b) n m)) := by
  unfold val_main_v16
  rw [Host.reduce_eq_fold_single FloatOps.minimumf _ _ reducesTo_S4x4096x4096_S4x4096_d2 (by decide) h_S_ (ix2 b n)]
  refine Finset.fold_congr fun (m : Fin 4096) _ => ?_
  have e : (by decide : S4x4096x4096.Reduces [2] S4x4096).lift (ix2 b n) m = ix3 b n m := funext fun a => Fin.ext (by
    match a with | ⟨0, _⟩ => rfl | ⟨1, _⟩ => rfl | ⟨2, _⟩ => rfl)
  show val_main_v15 (F := Ideal) x0 x1 (_) = _
  rw [e]
  exact dist_apply x0 x1 b n m

/-- For every point of the second set, the distance to the nearest point of the first. -/
theorem colMin_apply (x0 x1 : Arg) (b : Fin 4) (m : Fin 4096) :
    val_main_v17 (F := Ideal) x0 x1 (ix2 b m)
      = (Finset.univ : Finset (Fin 4096)).fold min cInf (fun n => clampRoot (sqDist (batchPts x0 b) (batchPts x1 b) n m)) := by
  unfold val_main_v17
  rw [Host.reduce_eq_fold_single FloatOps.minimumf _ _ reducesTo_S4x4096x4096_S4x4096_d1 (by decide) h_S_ (ix2 b m)]
  refine Finset.fold_congr fun (n : Fin 4096) _ => ?_
  have e : (by decide : S4x4096x4096.Reduces [1] S4x4096).lift (ix2 b m) n = ix3 b n m := funext fun a => Fin.ext (by
    match a with | ⟨0, _⟩ => rfl | ⟨1, _⟩ => rfl | ⟨2, _⟩ => rfl)
  show val_main_v15 (F := Ideal) x0 x1 (_) = _
  rw [e]
  exact dist_apply x0 x1 b n m

/-- One batch entry's chamfer distance. -/
theorem entry_apply (x0 x1 : Arg) (b : Fin 4) :
    val_main_v24 (F := Ideal) x0 x1 (ix1 b) = entryRef (batchPts x0 b) (batchPts x1 b) := by
  have e18 : ∀ k : Fin 4096, idx_main_v18 (ix1 b) k = ix2 b k := fun k => funext fun a => Fin.ext (by
    match a with | ⟨0, _⟩ => rfl | ⟨1, _⟩ => rfl)
  have e21 : ∀ k : Fin 4096, idx_main_v21 (ix1 b) k = ix2 b k := fun k => funext fun a => Fin.ext (by
    match a with | ⟨0, _⟩ => rfl | ⟨1, _⟩ => rfl)
  rw [val_main_v24_apply, val_main_v20_apply, val_main_v23_apply, val_main_v18_apply, val_main_v21_apply,
    val_main_v19_apply, val_main_v22_apply, val_main_cst_6_apply, val_main_cst_8_apply]
  simp only [e18, e21, rowMin_apply, colMin_apply]
  show Ideal.div (Ideal.ofBits .f32 0x00000000#32 + _) _ + Ideal.div (Ideal.ofBits .f32 0x00000000#32 + _) _ = _
  rw [Ideal.ofBits_zero_f32, zero_add, zero_add]
  rfl

/-- The reference's result. -/
theorem result_eq (x0 x1 : Arg) : val_main_v27 (F := Ideal) x0 x1 = fun _ => resultRef (batchPts x0) (batchPts x1) := by
  funext i
  rw [val_main_v27_apply, val_main_v26_apply, val_main_v25_apply]
  show Ideal.div (Ideal.div (Ideal.ofBits .f32 0x00000000#32 + _) _) _ = _
  rw [Ideal.ofBits_zero_f32, zero_add]
  have e : (∑ j : S4.Idx, val_main_v24 (F := Ideal) x0 x1 j) = ∑ b : Fin 4, entryRef (batchPts x0 b) (batchPts x1 b) := by
    refine Fintype.sum_equiv ⟨fun j => j 0, fun b => ix1 b, fun j => (eq_ix1 j).symm, fun _ => rfl⟩ _ _ fun j => ?_
    obtain ⟨b, rfl⟩ : ∃ b : Fin 4, j = ix1 b := ⟨j 0, eq_ix1 j⟩
    exact entry_apply x0 x1 b
  rw [e]
  rfl

end Cert.ReferenceIdeal.RefValue

end
-- ==== Proof.ChamferConsts.lean ====
/-
  The exact values of the ten floating-point constants of the chamfer distance.
-/
import proofs.«144906_g68143951118336_cont_9to1c4b_323_22_alg».proof.Proof.ChamferSpec

noncomputable section

namespace Cert.Chamfer

open Idealize.ShloMosaic

/-- The f32 pattern of +0 is zero. -/
theorem cZero_eq : cZero = 0 := by
  simp [cZero, Ideal.ofBits, Ideal.ieee]

/-- The f32 pattern 0x40000000 is 2. -/
theorem cTwo_eq : cTwo = ((2 : ℝ) : EReal) := by
  simp [cTwo, Ideal.ofBits, Ideal.ieee, -EReal.coe_mul]; norm_num

/-- The f32 pattern 0xC0000000 is -2. -/
theorem cNegTwo_eq : cNegTwo = ((-2 : ℝ) : EReal) := by
  simp [cNegTwo, Ideal.ofBits, Ideal.ieee, -EReal.coe_mul]; norm_num

/-- The bf16 pattern 0x3F80 is 1. -/
theorem cOne_eq : cOne = 1 := by
  simp [cOne, Ideal.ofBits, Ideal.ieee, -EReal.coe_mul]; norm_num

/-- The f32 pattern with all-ones exponent and zero fraction is +∞. -/
theorem cInf_eq : cInf = ⊤ := by
  simp [cInf, Ideal.ofBits, Ideal.ieee]

/-- The bf16 pattern with all-ones exponent and zero fraction is +∞. -/
theorem cInf16_eq : cInf16 = ⊤ := by
  simp [cInf16, Ideal.ofBits, Ideal.ieee]

/-- The f32 pattern 0x45800000 is 4096. -/
theorem cCount_eq : cCount = ((4096 : ℝ) : EReal) := by
  simp [cCount, Ideal.ofBits, Ideal.ieee, -EReal.coe_mul]; norm_num

/-- The f32 pattern 0x40800000 is 4. -/
theorem cFour_eq : cFour = ((4 : ℝ) : EReal) := by
  simp [cFour, Ideal.ofBits, Ideal.ieee, -EReal.coe_mul]; norm_num

/-- The f32 nearest to 12.8 is 13421773 / 2^20. -/
theorem cRef_eq : cRef = ((13421773 / 1048576 : ℝ) : EReal) := by
  simp [cRef, Ideal.ofBits, Ideal.ieee, -EReal.coe_mul]; norm_num

/-- The f32 nearest to 51.2 is 13421773 / 2^18: exactly four times the one nearest to 12.8. -/
theorem cKer_eq : cKer = ((13421773 / 262144 : ℝ) : EReal) := by
  simp [cKer, Ideal.ofBits, Ideal.ieee, -EReal.coe_mul]; norm_num

end Cert.Chamfer

end
-- ==== Proof.FiniteInputs.lean ====
/-
  The precondition says every entry of both argument arrays is a real number: it is the conjunction, over each
  array, of "|x| < +∞ at every entry", and an extended real whose absolute value is below +∞ is neither
  infinity.
-/
import proofs.«144906_g68143951118336_cont_9to1c4b_323_22_alg».proof.Proof.Gen.Pre_finite_inputs
import proofs.«144906_g68143951118336_cont_9to1c4b_323_22_alg».proof.Proof.ChamferConsts
import Idealize.ShloMosaic.Lib.ReduceAll
import Idealize.ShloMosaic.Lib.Affine
import Idealize.ShloMosaic.Lib.ValueIdx

set_option maxRecDepth 16384

noncomputable section

namespace Cert.FiniteInputs

open Idealize.ShloMosaic
open Idealize.ShloMosaic.ValueIdx Cert.Pre_finite_inputs Cert.Pre_finite_inputs.Gen Cert.Chamfer

instance : Subsingleton S_.Idx := ⟨fun a b => funext fun d => d.elim0⟩

/-- |x| < +∞ means x is a real number. -/
theorem real_of_abs_lt (x : EReal) (h : Ideal.cmp .olt (max x (-x)) cInf = 1#1) : x ≠ ⊤ ∧ x ≠ ⊥ := by
  rw [cInf_eq] at h
  have h' : max x (-x) < ⊤ := by
    by_contra hn
    have hd : decide (max x (-x) < ⊤) = false := decide_eq_false hn
    change BitVec.ofBool (decide (max x (-x) < ⊤)) = 1#1 at h
    rw [hd] at h
    exact absurd h (by decide)
  constructor
  · rintro rfl; simp at h'
  · rintro rfl; simp at h'

/-- The precondition gives: every entry of both arrays is a real number. -/
theorem finite_of_pre (a0 a1 : FVec Ideal S4x4096x64 .f32) (h : fn (F := Ideal) a0 a1 = fun _ => 1#1) :
    (∀ i, a0 i ≠ ⊤ ∧ a0 i ≠ ⊥) ∧ (∀ i, a1 i ≠ ⊤ ∧ a1 i ≠ ⊥) := by
  have h0 := congrFun h ix0
  dsimp only [fn] at h0
  obtain ⟨hA, hB⟩ := IntOp.andi_eq_one.1 h0
  refine ⟨fun i => real_of_abs_lt _ ?_, fun i => real_of_abs_lt _ ?_⟩
  · exact Host.reduce_andi_all _ _ reducesTo_S4x4096x64_S_d0_1_2 h_S_ ix0 hA i
  · exact Host.reduce_andi_all _ _ reducesTo_S4x4096x64_S_d0_1_2 h_S_ ix0 hB i

end Cert.FiniteInputs

end
-- ==== Proof.LibERealFinite.lean ====
/-
  General facts about sums and minima of extended reals that are real numbers.
-/
import Mathlib.Data.EReal.Inv
import Mathlib.Algebra.BigOperators.Group.Finset.Basic
import Mathlib.Data.Finset.Fold

namespace LibERealFinite

open scoped BigOperators

/-- The coercion of the reals into the extended reals commutes with finite sums. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of extended reals each of which is a real number is the coercion of the real sum. -/
theorem sum_eq_coe {ι : Type*} (s : Finset ι) (F : ι → EReal) (f : ι → ℝ) (h : ∀ i ∈ s, F i = (f i : EReal)) :
    ∑ i ∈ s, F i = ((∑ i ∈ s, f i : ℝ) : EReal) := by
  rw [coe_finset_sum]; exact Finset.sum_congr rfl h

/-- The coercion of the reals into the extended reals commutes with binary minima. -/
theorem coe_min (a b : ℝ) : ((min a b : ℝ) : EReal) = min (a : EReal) (b : EReal) := by
  rcases le_total a b with h | h
  · rw [min_eq_left h, min_eq_left (EReal.coe_le_coe_iff.mpr h)]
  · rw [min_eq_right h, min_eq_right (EReal.coe_le_coe_iff.mpr h)]

/-- The coercion of the reals into the extended reals commutes with binary maxima. -/
theorem coe_max (a b : ℝ) : ((max a b : ℝ) : EReal) = max (a : EReal) (b : EReal) := by
  rcases le_total a b with h | h
  · rw [max_eq_right h, max_eq_right (EReal.coe_le_coe_iff.mpr h)]
  · rw [max_eq_left h, max_eq_left (EReal.coe_le_coe_iff.mpr h)]

/-- A finite sum of extended reals each of which is a real number is a real number. -/
theorem exists_sum_eq_coe {ι : Type*} (s : Finset ι) (F : ι → EReal) (h : ∀ i ∈ s, ∃ r : ℝ, F i = (r : EReal)) :
    ∃ r : ℝ, ∑ i ∈ s, F i = (r : EReal) := by
  classical
  induction s using Finset.induction_on with
  | empty => exact ⟨0, by simp⟩
  | insert a s ha ih =>
    obtain ⟨r, hr⟩ := h a (Finset.mem_insert_self a s)
    obtain ⟨r', hr'⟩ := ih (fun i hi => h i (Finset.mem_insert_of_mem hi))
    exact ⟨r + r', by rw [Finset.sum_insert ha, hr, hr', EReal.coe_add]⟩

/-- A map that preserves order preserves binary minima. -/
theorem map_min_of_monotone {g : EReal → EReal} (hg : Monotone g) (a b : EReal) : g (min a b) = min (g a) (g b) := by
  rcases le_total a b with h | h
  · rw [min_eq_left h, min_eq_left (hg h)]
  · rw [min_eq_right h, min_eq_right (hg h)]

/-- A monotone map that fixes `⊤` commutes with the minimum (folded from `⊤`) of a finite family. -/
theorem map_fold_min {ι : Type*} (s : Finset ι) {g : EReal → EReal} (hg : Monotone g) (htop : g ⊤ = ⊤)
    (f : ι → EReal) : g (s.fold min ⊤ f) = s.fold min ⊤ (fun i => g (f i)) := by
  have := Finset.fold_hom (op := (min : EReal → EReal → EReal)) (op' := min) (s := s) (b := ⊤) (f := f)
    (m := g) (map_min_of_monotone hg)
  rw [htop] at this
  exact this.symm

/-- The minimum, folded from `⊤`, of a NONEMPTY finite family of real numbers is a real number. -/
theorem exists_fold_min_eq_coe {ι : Type*} (s : Finset ι) (hs : s.Nonempty) (f : ι → ℝ) :
    ∃ r : ℝ, s.fold min ⊤ (fun i => (f i : EReal)) = (r : EReal) := by
  classical
  induction hs using Finset.Nonempty.cons_induction with
  | singleton a => exact ⟨f a, by simp⟩
  | cons a s ha hs ih =>
    obtain ⟨r, hr⟩ := ih
    refine ⟨min (f a) r, ?_⟩
    rw [Finset.fold_cons, hr, coe_min]

end LibERealFinite
-- ==== Proof.ChamferDist.lean ====
/-
  For point sets whose coordinates are real numbers, the squared distance computed as ONE inner product of
  length 68 of the extended points is the squared distance |xₙ|² + |yₘ|² − 2·⟨xₙ, yₘ⟩, and both are real numbers.
-/
import proofs.«144906_g68143951118336_cont_9to1c4b_323_22_alg».proof.Proof.ChamferConsts
import proofs.«144906_g68143951118336_cont_9to1c4b_323_22_alg».proof.Proof.LibERealFinite

noncomputable section

namespace Cert.Chamfer

open Idealize.ShloMosaic

/-- A real point set read as a point set of extended reals. -/
def lift (x : Fin 4096 → Fin 64 → ℝ) : Pts := fun n d => (x n d : EReal)

/-- The squared norm of a real point. -/
def rNorm (x : Fin 4096 → Fin 64 → ℝ) (n : Fin 4096) : ℝ := ∑ d : Fin 64, x n d * x n d

/-- The inner product of two real points. -/
def rDot (x y : Fin 4096 → Fin 64 → ℝ) (n m : Fin 4096) : ℝ := ∑ d : Fin 64, x n d * y m d

/-- The squared distance of two real points. -/
def rDist (x y : Fin 4096 → Fin 64 → ℝ) (n m : Fin 4096) : ℝ := rNorm x n + rNorm y m - 2 * rDot x y n m

/-- A point set with finite coordinates is the reading of a real point set. -/
theorem eq_lift_of_finite (x : Pts) (h : ∀ n d, x n d ≠ ⊤ ∧ x n d ≠ ⊥) :
    x = lift (fun n d => (x n d).toReal) := by
  funext n d
  exact (EReal.coe_toReal (h n d).1 (h n d).2).symm

variable (x y : Fin 4096 → Fin 64 → ℝ) (n m : Fin 4096)

theorem sqNorm_lift : sqNorm (lift x) n = ((rNorm x n : ℝ) : EReal) := by
  unfold sqNorm rNorm lift
  rw [LibERealFinite.coe_finset_sum]
  refine Finset.sum_congr rfl (fun d _ => ?_)
  rw [EReal.coe_mul]

theorem dot_lift : ∑ d : Fin 64, lift x n d * lift y m d = ((rDot x y n m : ℝ) : EReal) := by
  unfold rDot lift
  rw [LibERealFinite.coe_finset_sum]
  refine Finset.sum_congr rfl (fun d _ => ?_)
  rw [EReal.coe_mul]

/-- The reference's squared distance of real points is the real squared distance. -/
theorem sqDist_lift : sqDist (lift x) (lift y) n m = ((rDist x y n m : ℝ) : EReal) := by
  unfold sqDist rDist
  rw [sqNorm_lift, sqNorm_lift, dot_lift, cTwo_eq, ← EReal.coe_add, ← EReal.coe_mul, ← EReal.coe_sub]

/-- A sum over 68 indices is the sum over the first 64 plus the last four terms. -/
theorem sum_fin68 (F : Fin 68 → EReal) :
    ∑ k : Fin 68, F k
      = (∑ i : Fin 64, F (Fin.castAdd 4 i))
        + (F ⟨64, by norm_num⟩ + F ⟨65, by norm_num⟩ + F ⟨66, by norm_num⟩ + F ⟨67, by norm_num⟩) := by
  have h := Fin.sum_univ_add (M := EReal) (a := 64) (b := 4) F
  rw [Fin.sum_univ_four] at h
  exact h

theorem augL_lt (x : Pts) (i : Fin 64) : augL x n (Fin.castAdd 4 i) = x n i := by
  have h : (Fin.castAdd 4 i).val < 64 := i.isLt
  rw [augL, dif_pos h]
  rfl

theorem augR_lt (y : Pts) (i : Fin 64) : augR y m (Fin.castAdd 4 i) = cNegTwo * y m i := by
  have h : (Fin.castAdd 4 i).val < 64 := i.isLt
  rw [augR, dif_pos h]
  rfl

theorem augL_64 (x : Pts) : augL x n ⟨64, by norm_num⟩ = sqNorm x n := by simp [augL]
theorem augL_65 (x : Pts) : augL x n ⟨65, by norm_num⟩ = sqNorm x n - sqNorm x n := by simp [augL]
theorem augL_66 (x : Pts) : augL x n ⟨66, by norm_num⟩ = cOne := by simp [augL]
theorem augL_67 (x : Pts) : augL x n ⟨67, by norm_num⟩ = cOne := by simp [augL]
theorem augR_64 (y : Pts) : augR y m ⟨64, by norm_num⟩ = cOne := by simp [augR]
theorem augR_65 (y : Pts) : augR y m ⟨65, by norm_num⟩ = cOne := by simp [augR]
theorem augR_66 (y : Pts) : augR y m ⟨66, by norm_num⟩ = sqNorm y m := by simp [augR]
theorem augR_67 (y : Pts) : augR y m ⟨67, by norm_num⟩ = sqNorm y m - sqNorm y m := by simp [augR]

/-- The kernel's squared distance of real points — one inner product of length 68 — is the real squared distance:
    the first 64 terms give −2·⟨xₙ, yₘ⟩, the last four |xₙ|², 0, |yₘ|², 0. -/
theorem sqDistAug_lift : sqDistAug (lift x) (lift y) n m = ((rDist x y n m : ℝ) : EReal) := by
  have hhead : ∑ i : Fin 64, augL (lift x) n (Fin.castAdd 4 i) * augR (lift y) m (Fin.castAdd 4 i)
      = (((-2) * rDot x y n m : ℝ) : EReal) := by
    unfold rDot
    rw [Finset.mul_sum, LibERealFinite.coe_finset_sum]
    refine Finset.sum_congr rfl (fun i _ => ?_)
    rw [augL_lt, augR_lt, cNegTwo_eq]
    unfold lift
    rw [← EReal.coe_mul, ← EReal.coe_mul]
    congr 1
    ring
  unfold sqDistAug
  rw [sum_fin68, hhead, augL_64, augL_65, augL_66, augL_67, augR_64, augR_65, augR_66, augR_67, sqNorm_lift, sqNorm_lift,
    cOne_eq, ← EReal.coe_one, ← EReal.coe_sub, ← EReal.coe_sub, ← EReal.coe_mul, ← EReal.coe_mul, ← EReal.coe_mul,
    ← EReal.coe_mul, ← EReal.coe_add, ← EReal.coe_add, ← EReal.coe_add, ← EReal.coe_add]
  congr 1
  unfold rDist
  ring

/-- So on real points the kernel's squared distance is the reference's. -/
theorem sqDistAug_eq_sqDist : sqDistAug (lift x) (lift y) n m = sqDist (lift x) (lift y) n m := by
  rw [sqDistAug_lift, sqDist_lift]

end Cert.Chamfer

end
-- ==== Proof.ChamferMin.lean ====
/-
  Clamping at zero and rooting is monotone and fixes +∞, so it commutes with a minimum; on real points the
  kernel's sums of nearest distances are therefore the reference's, and they are real numbers.
-/
import proofs.«144906_g68143951118336_cont_9to1c4b_323_22_alg».proof.Proof.ChamferDist

noncomputable section

namespace Cert.Chamfer

open Idealize.ShloMosaic

/-- On a real number: the root of its positive part. -/
theorem clampRoot_coe (r : ℝ) : clampRoot (r : EReal) = ((Real.sqrt (max r 0) : ℝ) : EReal) := by
  rw [clampRoot, cZero_eq, ← EReal.coe_zero, ← LibERealFinite.coe_max, Ideal.sqrt_coe,
    if_neg (not_lt.mpr (le_max_right r 0))]

theorem clampRoot_top : clampRoot ⊤ = ⊤ := by
  rw [clampRoot, max_eq_left le_top, Ideal.sqrt_top]

theorem clampRoot_bot : clampRoot ⊥ = 0 := by
  rw [clampRoot, cZero_eq, max_eq_right bot_le, ← EReal.coe_zero, Ideal.sqrt_coe, if_neg (lt_irrefl 0),
    Real.sqrt_zero]

theorem clampRoot_nonneg (z : EReal) : 0 ≤ clampRoot z := by
  induction z with
  | bot => rw [clampRoot_bot]
  | coe r => rw [clampRoot_coe, ← EReal.coe_zero, EReal.coe_le_coe_iff]; exact Real.sqrt_nonneg _
  | top => rw [clampRoot_top]; exact le_top

/-- Clamping and rooting preserves order. -/
theorem clampRoot_mono : Monotone clampRoot := by
  intro a b hab
  induction a with
  | bot => rw [clampRoot_bot]; exact clampRoot_nonneg b
  | coe r =>
    induction b with
    | bot => exact absurd hab (by simp)
    | coe s =>
      rw [clampRoot_coe, clampRoot_coe, EReal.coe_le_coe_iff]
      exact Real.sqrt_le_sqrt (max_le_max (EReal.coe_le_coe_iff.mp hab) le_rfl)
    | top => rw [clampRoot_top]; exact le_top
  | top => rw [top_le_iff.mp hab]

variable (x y : Fin 4096 → Fin 64 → ℝ)

/-- The nearest distance from x's point n: the minimum before or after clamping and rooting, and a real number. -/
theorem rowMin_lift (n : Fin 4096) :
    clampRoot ((Finset.univ : Finset (Fin 4096)).fold min cInf16 (fun m => sqDistAug (lift x) (lift y) n m))
        = (Finset.univ : Finset (Fin 4096)).fold min cInf (fun m => clampRoot (sqDist (lift x) (lift y) n m))
      ∧ ∃ r : ℝ, (Finset.univ : Finset (Fin 4096)).fold min cInf (fun m => clampRoot (sqDist (lift x) (lift y) n m))
          = (r : EReal) := by
  have hne : (Finset.univ : Finset (Fin 4096)).Nonempty := ⟨0, Finset.mem_univ _⟩
  constructor
  · rw [cInf16_eq, cInf_eq, LibERealFinite.map_fold_min _ clampRoot_mono clampRoot_top]
    refine Finset.fold_congr (fun m _ => ?_)
    rw [sqDistAug_eq_sqDist]
  · rw [cInf_eq]
    have h : (fun m => clampRoot (sqDist (lift x) (lift y) n m))
        = (fun m => ((Real.sqrt (max (rDist x y n m) 0) : ℝ) : EReal)) := by
      funext m
      rw [sqDist_lift, clampRoot_coe]
    rw [h]
    exact LibERealFinite.exists_fold_min_eq_coe _ hne _

/-- The same from y's point m. -/
theorem colMin_lift (m : Fin 4096) :
    clampRoot ((Finset.univ : Finset (Fin 4096)).fold min cInf16 (fun n => sqDistAug (lift x) (lift y) n m))
        = (Finset.univ : Finset (Fin 4096)).fold min cInf (fun n => clampRoot (sqDist (lift x) (lift y) n m))
      ∧ ∃ r : ℝ, (Finset.univ : Finset (Fin 4096)).fold min cInf (fun n => clampRoot (sqDist (lift x) (lift y) n m))
          = (r : EReal) := by
  have hne : (Finset.univ : Finset (Fin 4096)).Nonempty := ⟨0, Finset.mem_univ _⟩
  constructor
  · rw [cInf16_eq, cInf_eq, LibERealFinite.map_fold_min _ clampRoot_mono clampRoot_top]
    refine Finset.fold_congr (fun n _ => ?_)
    rw [sqDistAug_eq_sqDist]
  · rw [cInf_eq]
    have h : (fun n => clampRoot (sqDist (lift x) (lift y) n m))
        = (fun n => ((Real.sqrt (max (rDist x y n m) 0) : ℝ) : EReal)) := by
      funext n
      rw [sqDist_lift, clampRoot_coe]
    rw [h]
    exact LibERealFinite.exists_fold_min_eq_coe _ hne _

/-- On real points the kernel's sum over x's points is the reference's. -/
theorem rowSumAug_lift : rowSumAug (lift x) (lift y) = rowMinSum (lift x) (lift y) := by
  unfold rowSumAug rowMinSum
  exact Finset.sum_congr rfl (fun n _ => (rowMin_lift x y n).1)

/-- On real points the kernel's sum over y's points is the reference's. -/
theorem colSumAug_lift : colSumAug (lift x) (lift y) = colMinSum (lift x) (lift y) := by
  unfold colSumAug colMinSum
  exact Finset.sum_congr rfl (fun m _ => (colMin_lift x y m).1)

/-- On real points the sum over x's points of the nearest distances is a real number. -/
theorem rowMinSum_lift_real : ∃ r : ℝ, rowMinSum (lift x) (lift y) = (r : EReal) := by
  unfold rowMinSum
  exact LibERealFinite.exists_sum_eq_coe _ _ (fun n _ => (rowMin_lift x y n).2)

/-- On real points the sum over y's points of the nearest distances is a real number. -/
theorem colMinSum_lift_real : ∃ r : ℝ, colMinSum (lift x) (lift y) = (r : EReal) := by
  unfold colMinSum
  exact LibERealFinite.exists_sum_eq_coe _ _ (fun m _ => (colMin_lift x y m).2)

end Cert.Chamfer

end
-- ==== Proof.ChamferAlgebra.lean ====
/-
  On finite inputs the kernel's form of the chamfer distance is the reference's form.
-/
import proofs.«144906_g68143951118336_cont_9to1c4b_323_22_alg».proof.Proof.ChamferMin

noncomputable section

namespace Cert.Chamfer

open Idealize.ShloMosaic

/-- The quotient of two real numbers, the divisor not zero, is the real quotient. -/
theorem div_coe_coe (a b : ℝ) (hb : b ≠ 0) : Ideal.div (a : EReal) (b : EReal) = ((a / b : ℝ) : EReal) := by
  rw [Ideal.div_coe hb, ← EReal.coe_mul, mul_one_div]

/-- The outer arithmetic, for the eight sums as real numbers: adding the four entries first and dividing by 4096 and
    by four times the constant is the mean over the entries of the two means added, divided by the constant. -/
theorem outer_real (a c : Fin 4 → ℝ) :
    Ideal.div
        (Ideal.div ((((a 0 : EReal) + (a 1 : EReal)) + (a 2 : EReal)) + (a 3 : EReal)) cCount
          + Ideal.div ((((c 0 : EReal) + (c 1 : EReal)) + (c 2 : EReal)) + (c 3 : EReal)) cCount)
        cKer
      = Ideal.div (Ideal.div (∑ b : Fin 4, (Ideal.div (a b : EReal) cCount + Ideal.div (c b : EReal) cCount)) cFour) cRef := by
  rw [Fin.sum_univ_four, cCount_eq, cKer_eq, cFour_eq, cRef_eq]
  simp only [← EReal.coe_add, div_coe_coe _ _ (show (4096 : ℝ) ≠ 0 by norm_num)]
  rw [div_coe_coe _ _ (show (4 : ℝ) ≠ 0 by norm_num), div_coe_coe _ _ (show (13421773 / 262144 : ℝ) ≠ 0 by norm_num),
    div_coe_coe _ _ (show (13421773 / 1048576 : ℝ) ≠ 0 by norm_num)]
  congr 1
  field_simp
  ring

theorem resultKer_eq_resultRef (X Y : Fin 4 → Pts) (hX : Finite X) (hY : Finite Y) :
    resultKer X Y = resultRef X Y := by
  -- every point set is the reading of a real one
  have hXl : ∀ b, X b = lift (fun n d => (X b n d).toReal) := fun b => eq_lift_of_finite (X b) (hX b)
  have hYl : ∀ b, Y b = lift (fun n d => (Y b n d).toReal) := fun b => eq_lift_of_finite (Y b) (hY b)
  -- the kernel's sums are the reference's
  have hrow : ∀ b, rowSumAug (X b) (Y b) = rowMinSum (X b) (Y b) := fun b => by
    rw [hXl b, hYl b]; exact rowSumAug_lift _ _
  have hcol : ∀ b, colSumAug (X b) (Y b) = colMinSum (X b) (Y b) := fun b => by
    rw [hXl b, hYl b]; exact colSumAug_lift _ _
  -- and those are real numbers
  have hrowR : ∀ b, ∃ r : ℝ, rowMinSum (X b) (Y b) = (r : EReal) := fun b => by
    rw [hXl b, hYl b]; exact rowMinSum_lift_real _ _
  have hcolR : ∀ b, ∃ r : ℝ, colMinSum (X b) (Y b) = (r : EReal) := fun b => by
    rw [hXl b, hYl b]; exact colMinSum_lift_real _ _
  choose a ha using hrowR
  choose c hc using hcolR
  unfold resultKer resultRef entryRef
  simp only [hrow, hcol, ha, hc]
  exact outer_real a c

end Cert.Chamfer

end
-- ==== Proof.lean ====
/-
  The chamfer distance of two batches of point sets, A and B of shape [4, 4096, 64]: a tiled kernel against its
  jnp reference, equal over the extended reals on finite inputs.

  The kernel runs a grid of four points, one per batch entry.  At a point it extends the entry's points so that
  one matrix product of two [4096, 68] matrices is the matrix of squared distances, takes the minimum of every row
  and of every column, clamps at zero, roots, sums, and adds the two sums to a running pair kept in its one output
  block; host lines after the region divide the pair's entries by 4096, add them and divide by 4 · 12.8 (in f32).
  The reference forms |a|² + |b|² − 2⟨a, b⟩ for all pairs at once, clamps, roots, reduces by minimum along either
  axis, takes means, adds them, takes the mean over the batch and divides by 12.8 (in f32).

  * Frames.  The running pair is stored at the first point and read back, added to and stored again at each later
    point; the body's run in these two cases, what the output block holds after each point, and the run of the whole
    program are in BodyBits (the kernel as printed) and BodyIdeal (the idealized kernel).  The reference has no
    kernel: its frame is its run.
  * The idealized kernel's result, read index by index, is `Cert.Chamfer.resultKer` of the argument arrays
    (KernelPoint, KernelDist, KernelMin, KernelTotals, KernelSums, KernelTail, KernelValue); the idealized
    reference's is `Cert.Chamfer.resultRef` (RefSide).
  * The precondition makes every entry a real number (FiniteInputs); on real entries the two forms agree
    (ChamferConsts, ChamferDist, ChamferMin, ChamferAlgebra over LibERealFinite): v − v = 0 and −2 distributes over a
    finite sum, so the extended inner product is the squared distance; clamping and rooting is monotone, so it
    commutes with the minimum; and the f32 constant 51.2 is exactly four times the f32 constant 12.8.
  * The idealized kernel differs from the printed one by four round trips through bf16 that the idealization
    removes; each is the identity at the ideal instance.
-/
import proofs.«144906_g68143951118336_cont_9to1c4b_323_22_alg».proof.Defs
import proofs.«144906_g68143951118336_cont_9to1c4b_323_22_alg».proof.Proof.Gen.Kernel
import proofs.«144906_g68143951118336_cont_9to1c4b_323_22_alg».proof.Proof.Gen.KernelIdeal
import proofs.«144906_g68143951118336_cont_9to1c4b_323_22_alg».proof.Proof.Gen.ReferenceIdeal
import proofs.«144906_g68143951118336_cont_9to1c4b_323_22_alg».proof.Proof.Gen.Pre_finite_inputs
import proofs.«144906_g68143951118336_cont_9to1c4b_323_22_alg».proof.Proof.BodyBits
import proofs.«144906_g68143951118336_cont_9to1c4b_323_22_alg».proof.Proof.KernelValue
import proofs.«144906_g68143951118336_cont_9to1c4b_323_22_alg».proof.Proof.RefSide
import proofs.«144906_g68143951118336_cont_9to1c4b_323_22_alg».proof.Proof.FiniteInputs
import proofs.«144906_g68143951118336_cont_9to1c4b_323_22_alg».proof.Proof.ChamferAlgebra
import Idealize.ShloMosaic.Adequacy
import Idealize.ShloMosaic.Init

noncomputable section

namespace Cert.Proof

open Idealize.ShloMosaic Idealize.ShloMosaic.ValueIdx Idealize.SL.Sem Cert.Chamfer

/-- The kernel as printed runs and leaves its arguments unchanged. -/
theorem frame_kernel : Cert.frame_Kernel := fun m ρ _ => Cert.Kernel.Acc.frame m ρ

/-- So does the idealized kernel. -/
theorem frame_kernelIdeal : Cert.frame_KernelIdeal := fun m ρ _ => Cert.KernelIdeal.Acc.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The four bf16 round trips the idealization removed are the identity at the ideal instance. -/
theorem preserves : Cert.preserves_Kernel_KernelIdeal :=
  ⟨IdealRules.truncf_extf.statement _ .f32 .bf16, IdealRules.truncf_extf.statement _ .f32 .bf16,
    IdealRules.truncf_extf.statement _ .f32 .bf16, IdealRules.truncf_extf.statement _ .f32 .bf16⟩

/-- On finite inputs the idealized kernel and the idealized reference end with the same number: the kernel's form and
    the reference's form of the chamfer distance of the same two arrays. -/
theorem algebraic : Cert.algebraic_KernelIdeal_ReferenceIdeal := by
  intro m ρ m' ρ' hpre hagree
  refine ⟨fun c => fun _ => resultKer (Cert.KernelIdeal.Acc.argPts (m ((c.tc : Thread Cert.KernelIdeal.nD Cert.KernelIdeal.τ).loc Cert.KernelIdeal.main_arg0)))
      (Cert.KernelIdeal.Acc.argPts (m ((c.tc : Thread Cert.KernelIdeal.nD Cert.KernelIdeal.τ).loc Cert.KernelIdeal.main_arg1))),
    Cert.KernelIdeal.Acc.run_result m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, Cert.ReferenceIdeal.RefValue.result_eq, (hagree c).1, (hagree c).2]
  obtain ⟨hA, hB⟩ := Cert.FiniteInputs.finite_of_pre _ _ (hpre c)
  funext _
  exact (resultKer_eq_resultRef _ _ (fun b n d => hA (ix3 b n d)) (fun b n d => hB (ix3 b n d))).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
